-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64x64 .f32) (main_arg10 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S25000x128 : Shape := ⟨2, ![25000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 127
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .bf16⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S25000x128, .f32⟩
  | .hbm, ⟨46, _⟩ => ⟨S25000x128, .f32⟩
  | .hbm, ⟨47, _⟩ => ⟨S_, .f32⟩
  | .hbm, ⟨48, _⟩ => ⟨S64x64, .f32⟩
  | .hbm, ⟨49, _⟩ => ⟨S64x128, .f32⟩
  | .hbm, ⟨50, _⟩ => ⟨S64x128, .f32⟩
  | .hbm, ⟨51, _⟩ => ⟨S128x128, .f32⟩
  | .hbm, ⟨52, _⟩ => ⟨S_, .f32⟩
  | .hbm, ⟨53, _⟩ => ⟨S64x64, .f32⟩
  | .hbm, ⟨54, _⟩ => ⟨S64x128, .f32⟩
  | .hbm, ⟨55, _⟩ => ⟨S64x128, .f32⟩
  | .hbm, ⟨56, _⟩ => ⟨S128x128, .f32⟩
  | .hbm, ⟨57, _⟩ => ⟨S128, .f32⟩
  | .hbm, ⟨58, _⟩ => ⟨S1x128, .f32⟩
  | .hbm, ⟨59, _⟩ => ⟨S25000x128, .f32⟩
  | .hbm, ⟨60, _⟩ => ⟨S50000x64, .f32⟩
  | .hbm, ⟨61, _⟩ => ⟨S50000x64, .bf16⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .bf16⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S25000x128, .f32⟩
  | .hbm, ⟨79, _⟩ => ⟨S25000x128, .f32⟩
  | .hbm, ⟨80, _⟩ => ⟨S_, .f32⟩
  | .hbm, ⟨81, _⟩ => ⟨S64x64, .f32⟩
  | .hbm, ⟨82, _⟩ => ⟨S64x128, .f32⟩
  | .hbm, ⟨83, _⟩ => ⟨S64x128, .f32⟩
  | .hbm, ⟨84, _⟩ => ⟨S128x128, .f32⟩
  | .hbm, ⟨85, _⟩ => ⟨S_, .f32⟩
  | .hbm, ⟨86, _⟩ => ⟨S64x64, .f32⟩
  | .hbm, ⟨87, _⟩ => ⟨S64x128, .f32⟩
  | .hbm, ⟨88, _⟩ => ⟨S64x128, .f32⟩
  | .hbm, ⟨89, _⟩ => ⟨S128x128, .f32⟩
  | .hbm, ⟨90, _⟩ => ⟨S128, .f32⟩
  | .hbm, ⟨91, _⟩ => ⟨S1x128, .f32⟩
  | .hbm, ⟨92, _⟩ => ⟨S25000x128, .f32⟩
  | .hbm, ⟨93, _⟩ => ⟨S50000x64, .f32⟩
  | .hbm, ⟨94, _⟩ => ⟨S50000x64, .bf16⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x64, .bf16⟩
  | .hbm, ⟨104, _⟩ => ⟨S800000x64, .f32⟩
  | .hbm, ⟨105, _⟩ => ⟨S_, .f32⟩
  | .hbm, ⟨106, _⟩ => ⟨S50000x64, .f32⟩
  | .hbm, ⟨107, _⟩ => ⟨S800000x1, .i32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S25000x128, .f32⟩
  | .hbm, ⟨112, _⟩ => ⟨S25000x128, .f32⟩
  | .hbm, ⟨113, _⟩ => ⟨S_, .f32⟩
  | .hbm, ⟨114, _⟩ => ⟨S64x64, .f32⟩
  | .hbm, ⟨115, _⟩ => ⟨S64x128, .f32⟩
  | .hbm, ⟨116, _⟩ => ⟨S64x128, .f32⟩
  | .hbm, ⟨117, _⟩ => ⟨S128x128, .f32⟩
  | .hbm, ⟨118, _⟩ => ⟨S_, .f32⟩
  | .hbm, ⟨119, _⟩ => ⟨S64x64, .f32⟩
  | .hbm, ⟨120, _⟩ => ⟨S64x128, .f32⟩
  | .hbm, ⟨121, _⟩ => ⟨S64x128, .f32⟩
  | .hbm, ⟨122, _⟩ => ⟨S128x128, .f32⟩
  | .hbm, ⟨123, _⟩ => ⟨S128, .f32⟩
  | .hbm, ⟨124, _⟩ => ⟨S1x128, .f32⟩
  | .hbm, ⟨125, _⟩ => ⟨S25000x128, .f32⟩
  | .hbm, ⟨126, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S50000x64_S25000x128 : S50000x64.ShapeCasts S25000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S25000x128.size a
  hwx2_5 : ∀ i : grid2.Coords, EltTy.bits .f32 = 32 ∨ (Rect.block (s := S25000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v83) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S_, .f32⟩
  | .hbm, ⟨95, _⟩ => ⟨S800000x1, .f32⟩
  | .hbm, ⟨96, _⟩ => ⟨S_, .f32⟩
  | .hbm, ⟨97, _⟩ => ⟨S50000x1, .f32⟩
  | .hbm, ⟨98, _⟩ => ⟨S800000x1, .i32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x64, .f32⟩
  | .hbm, ⟨104, _⟩ => ⟨S50000x64, .f32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run with its result kept. The program is seven segments: four stretches of host
  operations and, between them, three launches of the dense combine. Every weakly fair execution terminates without
  a fault; at the end the result buffer holds the last boundary's contents at that buffer (the fold of the
  segments' effects on the launch memory), and every argument array is as launched.
-/
import proofs.«178403_j53257594470606_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the eleven argument arrays end as launched. -/
theorem run : θ_run defs (onTc (τ := τ) (main (F := F))) ⟨m, fun _ => 0, ρ⟩ (fun r => ∀ c : Dev nD,
      r.2.mem ((c.tc : Thread nD τ).loc main_v96) = W7 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v96 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunV

end
-- ==== Proof.Spec.lean ====
/-
  One layer of the three-layer mean-aggregating graph network, as whole-array terms on the extended reals, in the two
  arrangements the two programs use, and the dense combine as an index-by-index function.

  A layer takes node features h (50000 × 64), the edge list (2 × 800000: row 0 the sources, row 1 the
  destinations), two 64 × 64 weights and a bias. Both arrangements first form, per destination node, the sum of
  its in-neighbours' feature rows: the rows of h are gathered at the (wrapped) sources and added into the rows the
  destinations name.

  * packed arrangement: the sum is multiplied by the reciprocal of max(count, 1), the count being a rank-1
    scatter of ones; the mean and h are re-laid as 25000 × 128 (two consecutive nodes side by side), the weights
    as 128 × 128 block-diagonal matrices [[W, 0], [0, W]], the bias twice in a 1 × 128 row; the dense combine
    (mean · Wl' + h · Wr') + b', rectified or not, is taken on the packed arrays and re-laid as 50000 × 64.
  * plain arrangement: the sum is divided by max(count, 1), the count a scatter of ones into a 50000 × 1 column;
    the result is (mean · Wl + b) + h · Wr, rectified or not.
-/
import proofs.«178403_j53257594470606_2_alg».proof.Proof.Gen.KernelIdeal
import proofs.«178403_j53257594470606_2_alg».proof.Proof.Gen.ReferenceIdeal
import Idealize.ShloMosaic.PureOps.Ideal
import Idealize.ShloMosaic.Lib.ValueIdx

noncomputable section

open scoped BigOperators

namespace Cert.Sage

open Idealize.ShloMosaic Idealize.ShloMosaic.ValueIdx

/-! ## The dense combine, index by index -/

/-- Entry (p, q) of (A · WL + X · WR) + B over M rows, 128 contracted positions and 128 columns. -/
def denseAt {M : Nat} (A X : (⟨2, ![M, 128]⟩ : Shape).Idx → EReal) (WL WR : (⟨2, ![128, 128]⟩ : Shape).Idx → EReal)
    (B : (⟨2, ![1, 128]⟩ : Shape).Idx → EReal) (p : Fin M) (q : Fin 128) : EReal :=
  ((∑ k : Fin 128, A (ix2 p k) * WL (ix2 k q)) + (∑ k : Fin 128, X (ix2 p k) * WR (ix2 k q))) + B (ix2 0 q)

/-- The dense combine of packed arrays, rectified (max with 0) when `relu`. -/
def dense (relu : Bool) {M : Nat} (A X : (⟨2, ![M, 128]⟩ : Shape).Idx → EReal) (WL WR : (⟨2, ![128, 128]⟩ : Shape).Idx → EReal)
    (B : (⟨2, ![1, 128]⟩ : Shape).Idx → EReal) : (⟨2, ![M, 128]⟩ : Shape).Idx → EReal :=
  fun j => if relu then max (denseAt A X WL WR B (j 0) (j 1)) 0 else denseAt A X WL WR B (j 0) (j 1)

end Cert.Sage

/-! ## The packed arrangement -/

namespace Cert.Sage.K

open Idealize.ShloMosaic Cert.KernelIdeal Cert.KernelIdeal.Gen

abbrev Feat := FVec Ideal S50000x64 .f32
abbrev Edges := IVec S2x800000 32
abbrev EdgeV := IVec S800000 32
abbrev Wt := FVec Ideal S64x64 .f32
abbrev Bias := FVec Ideal S64 .f32
abbrev Packed := FVec Ideal S25000x128 .f32
abbrev Inv := FVec Ideal S50000x1 .f32

/-- Row 0 of the edge list: the sources. -/
def srcOf (ei : Edges) : EdgeV :=
  shapeCast S800000 (extractStridedSlice S1x800000 ![0, 0] ei slices_S2x800000_S1x800000_0_0) shapeCasts_S1x800000_S800000
/-- Row 1 of the edge list: the destinations. -/
def dstOf (ei : Edges) : EdgeV :=
  shapeCast S800000 (extractStridedSlice S1x800000 ![1, 0] ei slices_S2x800000_S1x800000_1_0) shapeCasts_S1x800000_S800000

/-- The sources with a negative one moved up by the number of nodes, as a column of gather indices. -/
def wrapIdx (s : EdgeV) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The destinations as a column of scatter indices. -/
def colIdx (d : EdgeV) : IVec S800000x1 32 :=
  broadcastInDim S800000x1 ![0] bcast_S800000_S800000x1_0 d

/-- The reciprocal of max(in-degree, 1) per node, as a column: the in-degree is a scatter of ones. -/
def invCnt (d : EdgeV) : Inv :=
  shapeCast S50000x1
    (Host.divf (F := Ideal) (broadcastInDim S50000 ![] bcast_S_S50000 (constant (F := Ideal) S_ .f32 0x3F800000#32))
      (maximumf
        (Host.scatterAdd (F := Ideal) scatter_S50000_S800000x1_S800000_n_0_0_1
          (broadcastInDim S50000 ![] bcast_S_S50000 (constant (F := Ideal) S_ .f32 0x00000000#32)) (colIdx d)
          (broadcastInDim S800000 ![] bcast_S_S800000 (constant (F := Ideal) S_ .f32 0x3F800000#32)))
        (broadcastInDim S50000 ![] bcast_S_S50000 (constant (F := Ideal) S_ .f32 0x3F800000#32))))
    shapeCasts_S50000_S50000x1

/-- Per destination node the sum of its in-neighbours' rows (the rows pass through the narrower float format, the
    identity on the extended reals). -/
def agg (h : Feat) (s d : EdgeV) : Feat :=
  Host.scatterAdd (F := Ideal) scatter_S50000x64_S800000x1_S800000x64_1_0_0_1
    (broadcastInDim S50000x64 ![] bcast_S_S50000x64 (constant (F := Ideal) S_ .f32 0x00000000#32)) (colIdx d)
    (extf (F := Ideal) .f32 (Host.gather gather_S50000x64_S800000x1_S800000x64_1_0_n_n_0_1_164 (truncf (F := Ideal) .bf16 h bitsLt_bf16_f32) (wrapIdx s)) bitsLt_bf16_f32)

/-- The neighbour mean: the sum times the reciprocal column spread over the 64 features. -/
def mean (h : Feat) (s d : EdgeV) (inv : Inv) : Feat :=
  mulf (F := Ideal) (agg h s d) (broadcastInDim S50000x64 ![0, 1] bcast_S50000x1_S50000x64_0_1 inv)

/-- Two consecutive node rows side by side. -/
def pack (a : Feat) : Packed := shapeCast S25000x128 a shapeCasts_S50000x64_S25000x128
/-- Back to one node per row. -/
def unpack (y : Packed) : Feat := shapeCast S50000x64 y shapeCasts_S25000x128_S50000x64

/-- The block-diagonal weight [[w, 0], [0, w]]. -/
def bdiag (w : Wt) : FVec Ideal S128x128 .f32 :=
  concatenate S128x128 0
    [⟨S64x128, concatenate S64x128 1 [⟨S64x64, w⟩, ⟨S64x64, broadcastInDim S64x64 ![] bcast_S_S64x64 (constant (F := Ideal) S_ .f32 0x00000000#32)⟩] concatenates_S64x64_S64x64_S64x128_d1⟩,
     ⟨S64x128, concatenate S64x128 1 [⟨S64x64, broadcastInDim S64x64 ![] bcast_S_S64x64 (constant (F := Ideal) S_ .f32 0x00000000#32)⟩, ⟨S64x64, w⟩] concatenates_S64x64_S64x64_S64x128_d1⟩]
    concatenates_S64x128_S64x128_S128x128_d0
/-- The bias twice, as a 1 × 128 row. -/
def bias2 (b : Bias) : FVec Ideal S1x128 .f32 :=
  shapeCast S1x128 (concatenate S128 0 [⟨S64, b⟩, ⟨S64, b⟩] concatenates_S64_S64_S128_d0) shapeCasts_S128_S1x128

/-- The five packed operands of the dense combine, from a layer's inputs. -/
def layerOf (relu : Bool) (h : Feat) (s d : EdgeV) (inv : Inv) (Wl Wr : Wt) (b : Bias) : Feat :=
  unpack (Cert.Sage.dense relu (pack (mean h s d inv)) (pack h) (bdiag Wl) (bdiag Wr) (bias2 b))

/-- One layer in the packed arrangement. -/
def layer (relu : Bool) (h : Feat) (ei : Edges) (Wl Wr : Wt) (b : Bias) : Feat :=
  layerOf relu h (srcOf ei) (dstOf ei) (invCnt (dstOf ei)) Wl Wr b

end Cert.Sage.K

/-! ## The plain arrangement -/

namespace Cert.Sage.R

open Idealize.ShloMosaic Cert.ReferenceIdeal Cert.ReferenceIdeal.Gen

abbrev Feat := FVec Ideal S50000x64 .f32
abbrev Edges := IVec S2x800000 32
abbrev EdgeV := IVec S800000 32
abbrev Wt := FVec Ideal S64x64 .f32
abbrev Bias := FVec Ideal S64 .f32

def srcOf (ei : Edges) : EdgeV :=
  shapeCast S800000 (extractStridedSlice S1x800000 ![0, 0] ei slices_S2x800000_S1x800000_0_0) shapeCasts_S1x800000_S800000
def dstOf (ei : Edges) : EdgeV :=
  shapeCast S800000 (extractStridedSlice S1x800000 ![1, 0] ei slices_S2x800000_S1x800000_1_0) shapeCasts_S1x800000_S800000

def wrapIdx (s : EdgeV) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
def colIdx (d : EdgeV) : IVec S800000x1 32 :=
  broadcastInDim S800000x1 ![0] bcast_S800000_S800000x1_0 d

/-- Per destination node the sum of its in-neighbours' rows. -/
def agg (h : Feat) (s d : EdgeV) : Feat :=
  Host.scatterAdd (F := Ideal) scatter_S50000x64_S800000x1_S800000x64_1_0_0_1
    (broadcastInDim S50000x64 ![] bcast_S_S50000x64 (constant (F := Ideal) S_ .f32 0x00000000#32)) (colIdx d)
    (Host.gather gather_S50000x64_S800000x1_S800000x64_1_0_n_n_0_1_164 h (wrapIdx s))

/-- max(in-degree, 1) per node as a column spread over the 64 features: the in-degree is a scatter of ones into a
    50000 × 1 column. -/
def cntB (d : EdgeV) : Feat :=
  broadcastInDim S50000x64 ![0, 1] bcast_S50000x1_S50000x64_0_1
    (maximumf
      (Host.scatterAdd (F := Ideal) scatter_S50000x1_S800000x1_S800000x1_1_0_0_1
        (broadcastInDim S50000x1 ![] bcast_S_S50000x1 (constant (F := Ideal) S_ .f32 0x00000000#32)) (colIdx d)
        (broadcastInDim S800000x1 ![] bcast_S_S800000x1 (constant (F := Ideal) S_ .f32 0x3F800000#32)))
      (broadcastInDim S50000x1 ![] bcast_S_S50000x1 (constant (F := Ideal) S_ .f32 0x3F800000#32)))

/-- The neighbour mean: the sum divided by max(in-degree, 1). -/
def mean (h : Feat) (s d : EdgeV) : Feat := Host.divf (F := Ideal) (agg h s d) (cntB d)

/-- (mean · Wl + b) + h · Wr. -/
def affine (mn h : Feat) (Wl Wr : Wt) (b : Bias) : Feat :=
  addf
    (addf (F := Ideal) (Host.dotGeneral (F := Ideal) dot_S50000x64_S64x64_S50000x64_1_0_0_1_n_n none mn Wl)
      (broadcastInDim S50000x64 ![0, 1] bcast_S1x64_S50000x64_0_1 (broadcastInDim S1x64 ![1] bcast_S64_S1x64_1 b)))
    (Host.dotGeneral (F := Ideal) dot_S50000x64_S64x64_S50000x64_1_0_0_1_n_n none h Wr)

/-- Rectification: max with 0. -/
def relu (a : Feat) : Feat :=
  maximumf (F := Ideal) a (broadcastInDim S50000x64 ![] bcast_S_S50000x64 (constant (F := Ideal) S_ .f32 0x00000000#32))

/-- One layer in the plain arrangement. -/
def layer (rl : Bool) (h : Feat) (ei : Edges) (Wl Wr : Wt) (b : Bias) : Feat :=
  if rl then relu (affine (mean h (srcOf ei) (dstOf ei)) h Wl Wr b) else affine (mean h (srcOf ei) (dstOf ei)) h Wl Wr b

end Cert.Sage.R

end
-- ==== Proof.Stretches.lean ====
/-
  Each stretch of host operations of the packed program, read at the buffers the later segments use, from any
  buffer contents: the first stretch computes the edge list's two rows, the reciprocal in-degrees and the first
  layer's five packed operands; the second and third re-lay the previous launch's output and compute the next
  layer's packed operands from it and from the kept rows and reciprocals; the last re-lays the third launch's output.
  A buffer a stretch does not write keeps its contents.
-/
import proofs.«178403_j53257594470606_2_alg».proof.Proof.Spec
import proofs.«178403_j53257594470606_2_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen
open Cert.Sage

/-! ## Each stretch of host operations, from any contents `W` -/

section Stretches

variable (W : Valuation τ sig (Elt Ideal))

/-! ### The first stretch: the edge list's rows, the reciprocal in-degrees, and the first layer's packed operands -/

set_option maxHeartbeats 4000000 in
theorem h0_v1 : StableHlo.after (hostOps0 (F := Ideal)) W (Proc.devRef .tc main_v1) = K.srcOf (W (Proc.devRef .tc main_arg1)) := by
  after_results_simp <;> rfl
set_option maxHeartbeats 4000000 in
theorem h0_v3 : StableHlo.after (hostOps0 (F := Ideal)) W (Proc.devRef .tc main_v3) = K.dstOf (W (Proc.devRef .tc main_arg1)) := by
  after_results_simp <;> rfl
set_option maxHeartbeats 4000000 in
theorem h0_v12 : StableHlo.after (hostOps0 (F := Ideal)) W (Proc.devRef .tc main_v12) = K.invCnt (K.dstOf (W (Proc.devRef .tc main_arg1))) := by
  after_results_simp <;> rfl
set_option maxHeartbeats 4000000 in
theorem h0_v27 : StableHlo.after (hostOps0 (F := Ideal)) W (Proc.devRef .tc main_v27) = K.pack (K.mean (W (Proc.devRef .tc main_arg0)) (K.srcOf (W (Proc.devRef .tc main_arg1))) (K.dstOf (W (Proc.devRef .tc main_arg1))) (K.invCnt (K.dstOf (W (Proc.devRef .tc main_arg1))))) := by
  after_results_simp <;> rfl
set_option maxHeartbeats 4000000 in
theorem h0_v28 : StableHlo.after (hostOps0 (F := Ideal)) W (Proc.devRef .tc main_v28) = K.pack (W (Proc.devRef .tc main_arg0)) := by
  after_results_simp <;> rfl
set_option maxHeartbeats 4000000 in
theorem h0_v32 : StableHlo.after (hostOps0 (F := Ideal)) W (Proc.devRef .tc main_v32) = K.bdiag (W (Proc.devRef .tc main_arg2)) := by
  after_results_simp <;> rfl
set_option maxHeartbeats 4000000 in
theorem h0_v36 : StableHlo.after (hostOps0 (F := Ideal)) W (Proc.devRef .tc main_v36) = K.bdiag (W (Proc.devRef .tc main_arg3)) := by
  after_results_simp <;> rfl
set_option maxHeartbeats 4000000 in
theorem h0_v38 : StableHlo.after (hostOps0 (F := Ideal)) W (Proc.devRef .tc main_v38) = K.bias2 (W (Proc.devRef .tc main_arg4)) := by
  after_results_simp <;> rfl
set_option maxHeartbeats 4000000 in
theorem h0_arg5 : StableHlo.after (hostOps0 (F := Ideal)) W (Proc.devRef .tc main_arg5) = W (Proc.devRef .tc main_arg5) := by
  after_results_simp <;> rfl
set_option maxHeartbeats 4000000 in
theorem h0_arg6 : StableHlo.after (hostOps0 (F := Ideal)) W (Proc.devRef .tc main_arg6) = W (Proc.devRef .tc main_arg6) := by
  after_results_simp <;> rfl
set_option maxHeartbeats 4000000 in
theorem h0_arg7 : StableHlo.after (hostOps0 (F := Ideal)) W (Proc.devRef .tc main_arg7) = W (Proc.devRef .tc main_arg7) := by
  after_results_simp <;> rfl
set_option maxHeartbeats 4000000 in
theorem h0_arg8 : StableHlo.after (hostOps0 (F := Ideal)) W (Proc.devRef .tc main_arg8) = W (Proc.devRef .tc main_arg8) := by
  after_results_simp <;> rfl
set_option maxHeartbeats 4000000 in
theorem h0_arg9 : StableHlo.after (hostOps0 (F := Ideal)) W (Proc.devRef .tc main_arg9) = W (Proc.devRef .tc main_arg9) := by
  after_results_simp <;> rfl
set_option maxHeartbeats 4000000 in
theorem h0_arg10 : StableHlo.after (hostOps0 (F := Ideal)) W (Proc.devRef .tc main_arg10) = W (Proc.devRef .tc main_arg10) := by
  after_results_simp <;> rfl

/-! ### The second and third stretches: the previous layer's output re-laid, and the next layer's packed operands -/

set_option maxHeartbeats 4000000 in
theorem h1_v55 : StableHlo.after (hostOps1 (F := Ideal)) W (Proc.devRef .tc main_v55) = K.pack (K.mean (K.unpack (W (Proc.devRef .tc main_v39))) (W (Proc.devRef .tc main_v1)) (W (Proc.devRef .tc main_v3)) (W (Proc.devRef .tc main_v12))) := by
  after_results_simp <;> rfl
set_option maxHeartbeats 4000000 in
theorem h1_v56 : StableHlo.after (hostOps1 (F := Ideal)) W (Proc.devRef .tc main_v56) = K.pack (K.unpack (W (Proc.devRef .tc main_v39))) := by
  after_results_simp <;> rfl
set_option maxHeartbeats 4000000 in
theorem h1_v60 : StableHlo.after (hostOps1 (F := Ideal)) W (Proc.devRef .tc main_v60) = K.bdiag (W (Proc.devRef .tc main_arg5)) := by
  after_results_simp <;> rfl
set_option maxHeartbeats 4000000 in
theorem h1_v64 : StableHlo.after (hostOps1 (F := Ideal)) W (Proc.devRef .tc main_v64) = K.bdiag (W (Proc.devRef .tc main_arg6)) := by
  after_results_simp <;> rfl
set_option maxHeartbeats 4000000 in
theorem h1_v66 : StableHlo.after (hostOps1 (F := Ideal)) W (Proc.devRef .tc main_v66) = K.bias2 (W (Proc.devRef .tc main_arg7)) := by
  after_results_simp <;> rfl
set_option maxHeartbeats 4000000 in
theorem h1_v1 : StableHlo.after (hostOps1 (F := Ideal)) W (Proc.devRef .tc main_v1) = W (Proc.devRef .tc main_v1) := by
  after_results_simp <;> rfl
set_option maxHeartbeats 4000000 in
theorem h1_v3 : StableHlo.after (hostOps1 (F := Ideal)) W (Proc.devRef .tc main_v3) = W (Proc.devRef .tc main_v3) := by
  after_results_simp <;> rfl
set_option maxHeartbeats 4000000 in
theorem h1_v12 : StableHlo.after (hostOps1 (F := Ideal)) W (Proc.devRef .tc main_v12) = W (Proc.devRef .tc main_v12) := by
  after_results_simp <;> rfl
set_option maxHeartbeats 4000000 in
theorem h1_arg8 : StableHlo.after (hostOps1 (F := Ideal)) W (Proc.devRef .tc main_arg8) = W (Proc.devRef .tc main_arg8) := by
  after_results_simp <;> rfl
set_option maxHeartbeats 4000000 in
theorem h1_arg9 : StableHlo.after (hostOps1 (F := Ideal)) W (Proc.devRef .tc main_arg9) = W (Proc.devRef .tc main_arg9) := by
  after_results_simp <;> rfl
set_option maxHeartbeats 4000000 in
theorem h1_arg10 : StableHlo.after (hostOps1 (F := Ideal)) W (Proc.devRef .tc main_arg10) = W (Proc.devRef .tc main_arg10) := by
  after_results_simp <;> rfl
set_option maxHeartbeats 4000000 in
theorem h2_v83 : StableHlo.after (hostOps2 (F := Ideal)) W (Proc.devRef .tc main_v83) = K.pack (K.mean (K.unpack (W (Proc.devRef .tc main_v67))) (W (Proc.devRef .tc main_v1)) (W (Proc.devRef .tc main_v3)) (W (Proc.devRef .tc main_v12))) := by
  after_results_simp <;> rfl
set_option maxHeartbeats 4000000 in
theorem h2_v84 : StableHlo.after (hostOps2 (F := Ideal)) W (Proc.devRef .tc main_v84) = K.pack (K.unpack (W (Proc.devRef .tc main_v67))) := by
  after_results_simp <;> rfl
set_option maxHeartbeats 4000000 in
theorem h2_v88 : StableHlo.after (hostOps2 (F := Ideal)) W (Proc.devRef .tc main_v88) = K.bdiag (W (Proc.devRef .tc main_arg8)) := by
  after_results_simp <;> rfl
set_option maxHeartbeats 4000000 in
theorem h2_v92 : StableHlo.after (hostOps2 (F := Ideal)) W (Proc.devRef .tc main_v92) = K.bdiag (W (Proc.devRef .tc main_arg9)) := by
  after_results_simp <;> rfl
set_option maxHeartbeats 4000000 in
theorem h2_v94 : StableHlo.after (hostOps2 (F := Ideal)) W (Proc.devRef .tc main_v94) = K.bias2 (W (Proc.devRef .tc main_arg10)) := by
  after_results_simp <;> rfl

/-! ### The last stretch: the third layer's output re-laid -/

theorem h3_v96 : StableHlo.after (hostOps3 (F := Ideal)) W (Proc.devRef .tc main_v96) = K.unpack (W (Proc.devRef .tc main_v95)) := by
  after_results_simp <;> rfl

end Stretches

end Cert.KernelIdeal.Walk

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Region.lean ====
/-
  Each of the three launches of the dense combine leaves, in its result array, ONE whole-array function of the five
  arrays it was launched on: entry (i, j) of (A · WL + X · WR) + B over the 25000 packed rows, rectified (max with 0)
  in the first two launches and not in the third.

  A launch runs its body at five grid points. At point t the body is given rows 5000 t … 5000 t + 4999 of the two packed
  operands, the whole 128 × 128 weights and the 1 × 128 bias, and stores into rows 5000 t … of the result the sum of the
  two matrix products plus the bias spread over the rows (then the maximum with the zero splat, when rectified). Row i
  of that result depends on row i of the two packed operands only, so what point t writes back is exactly the t-th row
  block of the whole-array dense combine, and the five row blocks tile the 25000 rows: the array ends holding the dense
  combine.
-/
import proofs.«178403_j53257594470606_2_alg».proof.Proof.Spec
import proofs.«178403_j53257594470606_2_alg».proof.Proof.LibPlainDot
import proofs.«178403_j53257594470606_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at one entry -/

/-- The product of a 5000 × 128 block and a 128 × 128 matrix into the zero accumulator, with the program's dimension
    numbers (contract the block's columns with the matrix's rows), is the textbook sum at entry (p, q). -/
theorem matmul_block_apply (X : FVec Ideal S5000x128 .bf16) (W : FVec Ideal S128x128 .bf16) (p : Fin 5000) (q : Fin 128) :
    matmul (F := Ideal) dot_S5000x128_S128x128_S5000x128_1_0_0_1_n_n none X W (constant (F := Ideal) S5000x128 .f32 0x00000000#32) (ix2 p q)
      = ∑ k : Fin 128, X (ix2 p k) * W (ix2 k q) :=
  Cert.Proof.PlainDot.matmul_plain_zero (M := 5000) (K := 128) (N := 128) none X W (ix2 p q)

/-- The 1 × 128 bias row spread over the 5000 rows, read at (p, q), is the row's entry q. -/
theorem bias_block_apply (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) fun a => by
    match a with
    | ⟨0, _⟩ => rfl
    | ⟨1, _⟩ => rfl

/-- What the unrectified body stores at entry (p, q) of its block: (x0 · w0 + x1 · w1) + b there; the narrowing of the
    operands to the shorter float format is the identity on the extended reals. -/
theorem k2_pay1_apply (x0 x1 : Vec Ideal S5000x128 .f32) (w0 w1 : Vec Ideal S128x128 .f32) (b : Vec Ideal S1x128 .f32)
    (p : Fin 5000) (q : Fin 128) :
    k2_pay1 (F := Ideal) x0 x1 w0 w1 b (ix2 p q) = Cert.Sage.denseAt x0 x1 w0 w1 b p q := by
  unfold k2_pay1 Cert.Sage.denseAt
  simp only [shapeCast_self]
  rw [addf_apply, addf_apply, matmul_block_apply, matmul_block_apply, bias_block_apply]
  rfl

/-- What the rectified body stores at entry (p, q): the same, then the maximum with the zero splat. -/
theorem k0_pay1_apply (x0 x1 : Vec Ideal S5000x128 .f32) (w0 w1 : Vec Ideal S128x128 .f32) (b : Vec Ideal S1x128 .f32)
    (p : Fin 5000) (q : Fin 128) :
    k0_pay1 (F := Ideal) x0 x1 w0 w1 b (ix2 p q) = max (Cert.Sage.denseAt x0 x1 w0 w1 b p q) 0 := by
  unfold k0_pay1 Cert.Sage.denseAt
  simp only [shapeCast_self]
  rw [maximumf_apply, addf_apply, addf_apply, matmul_block_apply, matmul_block_apply, bias_block_apply, broadcast_apply]
  exact congrArg (max _) Ideal.ofBits_zero_f32

/-- The second launch's body is the first's. -/
theorem k1_pay1_apply (x0 x1 : Vec Ideal S5000x128 .f32) (w0 w1 : Vec Ideal S128x128 .f32) (b : Vec Ideal S1x128 .f32)
    (p : Fin 5000) (q : Fin 128) :
    k1_pay1 (F := Ideal) x0 x1 w0 w1 b (ix2 p q) = max (Cert.Sage.denseAt x0 x1 w0 w1 b p q) 0 :=
  k0_pay1_apply x0 x1 w0 w1 b p q

/-! ## Row blocks of a packed array -/

/-- Rows 5000 r … 5000 r + 4999 of a 25000 × 128 array, as a 5000 × 128 array. -/
def rowBlock (A : S25000x128.Idx → EReal) (r : Nat) (hr : r < 5) : S5000x128.Idx → EReal :=
  fun y => A (ix2 (⟨r * 5000 + (y 0).val, by have := idx2_lt0 y; omega⟩ : Fin 25000) (y 1 : Fin 128))

/-- Row i of the dense combine depends on row i of the two packed operands only: the rectified body on the r-th row
    blocks of the operands (and the whole weights and bias) gives the r-th row block of the rectified dense combine. -/
theorem k0_pay1_rows (A0 A1 : S25000x128.Idx → EReal) (A2 A3 : S128x128.Idx → EReal) (A4 : S1x128.Idx → EReal)
    (r : Nat) (hr : r < 5) :
    k0_pay1 (F := Ideal) (rowBlock A0 r hr) (rowBlock A1 r hr) A2 A3 A4 = rowBlock (Cert.Sage.dense true A0 A1 A2 A3 A4) r hr := by
  funext j
  obtain ⟨p, q, rfl⟩ : ∃ (p : Fin 5000) (q : Fin 128), j = ix2 p q := ⟨j 0, j 1, eq_ix2 j⟩
  rw [k0_pay1_apply]
  unfold rowBlock Cert.Sage.dense
  rw [if_pos rfl]
  rfl

/-- The same for the second launch. -/
theorem k1_pay1_rows (A0 A1 : S25000x128.Idx → EReal) (A2 A3 : S128x128.Idx → EReal) (A4 : S1x128.Idx → EReal)
    (r : Nat) (hr : r < 5) :
    k1_pay1 (F := Ideal) (rowBlock A0 r hr) (rowBlock A1 r hr) A2 A3 A4 = rowBlock (Cert.Sage.dense true A0 A1 A2 A3 A4) r hr :=
  k0_pay1_rows A0 A1 A2 A3 A4 r hr

/-- The unrectified body gives the r-th row block of the unrectified dense combine. -/
theorem k2_pay1_rows (A0 A1 : S25000x128.Idx → EReal) (A2 A3 : S128x128.Idx → EReal) (A4 : S1x128.Idx → EReal)
    (r : Nat) (hr : r < 5) :
    k2_pay1 (F := Ideal) (rowBlock A0 r hr) (rowBlock A1 r hr) A2 A3 A4 = rowBlock (Cert.Sage.dense false A0 A1 A2 A3 A4) r hr := by
  funext j
  obtain ⟨p, q, rfl⟩ : ∃ (p : Fin 5000) (q : Fin 128), j = ix2 p q := ⟨j 0, j 1, eq_ix2 j⟩
  rw [k2_pay1_apply]
  unfold rowBlock Cert.Sage.dense
  rw [if_neg (by decide)]
  rfl

/-- The zero offsets of a whole-buffer load or store, as the constant function. -/
theorem zero_offsets : (![0, 0] : Fin 2 → Nat) = fun _ => 0 := funext fun a => by fin_cases a <;> rfl

/-! ## Launch 0: the index maps, each window's block as rows of its array, the write-back, the cover -/

/-- The printed index maps of launch 0, decided over its five grid points: the two packed operands and the result move
    with the grid point down the rows (block row t, block column 0); the weights and the bias stay at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point of launch 0 is below 5. -/
theorem point_lt0 (t : Fin cfg0.N) : t.val < 5 := lt_of_lt_of_eq t.isLt N_0

section
variable (V : (c : Dev nD) → (b : Ref sig .tc) → Buf (Elt Ideal) ((c : Thread nD τ).loc b)) (c : Dev nD)

/-- The first packed operand's block at point t is rows 5000 t … of its array: a block's coordinate is the block index
    times the block size plus the coordinate inside the block. -/
theorem iblk0_0_rows (t : Fin cfg0.N) :
    (iblk0 V c 0 t : Vec Ideal S5000x128 .f32) = rowBlock (V c (Pipeline.arrRef spec0 0)) t.val (point_lt0 t) := by
  obtain ⟨e0, e1, -⟩ := block_index0 t
  funext y
  unfold iblk0 rowBlock
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (y 0).val = t.val * 5000 + (y 0).val; rw [e0]; omega
  | ⟨1, _⟩ => show win0_0.index t (1 : Fin 2) * 128 + 1 * (y 1).val = (y 1).val; rw [e1]; omega

/-- The second packed operand's block at point t is rows 5000 t … of its array. -/
theorem iblk0_1_rows (t : Fin cfg0.N) :
    (iblk0 V c 1 t : Vec Ideal S5000x128 .f32) = rowBlock (V c (Pipeline.arrRef spec0 1)) t.val (point_lt0 t) := by
  obtain ⟨-, -, e0, e1, -⟩ := block_index0 t
  funext y
  unfold iblk0 rowBlock
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * (y 0).val = t.val * 5000 + (y 0).val; rw [e0]; omega
  | ⟨1, _⟩ => show win0_1.index t (1 : Fin 2) * 128 + 1 * (y 1).val = (y 1).val; rw [e1]; omega

/-- The first weight's block at every point is the whole 128 × 128 array. -/
theorem iblk0_2_whole (t : Fin cfg0.N) :
    (iblk0 V c 2 t : Vec Ideal S128x128 .f32) = V c (Pipeline.arrRef spec0 2) := by
  obtain ⟨-, -, -, -, e0, e1, -⟩ := block_index0 t
  funext y
  unfold iblk0
  rw [View.read_apply]
  show V c (Pipeline.arrRef spec0 2) _ = V c (Pipeline.arrRef spec0 2) y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight's block at every point is the whole 128 × 128 array. -/
theorem iblk0_3_whole (t : Fin cfg0.N) :
    (iblk0 V c 3 t : Vec Ideal S128x128 .f32) = V c (Pipeline.arrRef spec0 3) := by
  obtain ⟨-, -, -, -, -, -, e0, e1, -⟩ := block_index0 t
  funext y
  unfold iblk0
  rw [View.read_apply]
  show V c (Pipeline.arrRef spec0 3) _ = V c (Pipeline.arrRef spec0 3) y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias's block at every point is the whole 1 × 128 row. -/
theorem iblk0_4_whole (t : Fin cfg0.N) :
    (iblk0 V c 4 t : Vec Ideal S1x128 .f32) = V c (Pipeline.arrRef spec0 4) := by
  obtain ⟨-, -, -, -, -, -, -, -, e0, e1, -⟩ := block_index0 t
  funext y
  unfold iblk0
  rw [View.read_apply]
  show V c (Pipeline.arrRef spec0 4) _ = V c (Pipeline.arrRef spec0 4) y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Block t of the result window, read off any 25000 × 128 array, is rows 5000 t … of that array. -/
theorem read_out0_rows (G : S25000x128.Idx → EReal) (t : Fin cfg0.N) :
    (((cfg0.win 5).blk t).view.read (Elt Ideal) G : Vec Ideal S5000x128 .f32) = rowBlock G t.val (point_lt0 t) := by
  obtain ⟨-, -, -, -, -, -, -, -, -, -, e0, e1⟩ := block_index0 t
  funext y
  unfold rowBlock
  rw [View.read_apply]
  show G _ = G _
  congr 1
  funext a
  apply Fin.ext
  match a with
  | ⟨0, _⟩ => show win0_5.index t (0 : Fin 2) * 5000 + 1 * (y 0).val = t.val * 5000 + (y 0).val; rw [e0]; omega
  | ⟨1, _⟩ => show win0_5.index t (1 : Fin 2) * 128 + 1 * (y 1).val = (y 1).val; rw [e1]; omega

/-- The rectified dense combine of the five arrays launch 0 finds, as one 25000 × 128 array. -/
abbrev denseOf0 : S25000x128.Idx → EReal :=
  Cert.Sage.dense true (V c (Pipeline.arrRef spec0 0)) (V c (Pipeline.arrRef spec0 1)) (V c (Pipeline.arrRef spec0 2))
    (V c (Pipeline.arrRef spec0 3)) (V c (Pipeline.arrRef spec0 4))

/-- What the body leaves in the result's staging buffer at point t: it loads its five whole staging buffers and stores
    the whole result buffer once, so the buffer ends holding the body's arithmetic of the five blocks. -/
theorem body0_leaves (t : Fin cfg0.N) :
    ((dat0 (F := Ideal) V c).after 5 t : Vec Ideal S5000x128 .f32)
      = k0_pay1 (iblk0 V c 0 t) (iblk0 V c 1 t) (iblk0 V c 2 t) (iblk0 V c 3 t) (iblk0 V c 4 t) := by
  rw [after0_5]
  unfold out0_5
  rw [View.canon_unit_zero zero_offsets]
  simp only [View.ld_unit_zero (S := S5000x128) zero_offsets, View.ld_unit_zero (S := S128x128) zero_offsets, View.ld_unit_zero (S := S1x128) zero_offsets]

/-- That arithmetic of the five blocks at point t is the t-th row block of the dense combine of the five arrays: the
    operands' blocks are their t-th row blocks, the weights' and the bias's blocks are the whole arrays. -/
theorem pay0_rows (t : Fin cfg0.N) :
    k0_pay1 (F := Ideal) (iblk0 V c 0 t) (iblk0 V c 1 t) (iblk0 V c 2 t) (iblk0 V c 3 t) (iblk0 V c 4 t)
      = rowBlock (denseOf0 V c) t.val (point_lt0 t) := by
  rw [iblk0_0_rows V c t, iblk0_1_rows V c t, iblk0_2_whole V c t, iblk0_3_whole V c t, iblk0_4_whole V c t]
  exact k0_pay1_rows _ _ _ _ _ _ _

/-- What point t writes back is block t of the dense combine of the five arrays as the launch finds them. -/
theorem writeback0 (t : Fin cfg0.N) :
    (dat0 (F := Ideal) V c).flushed 5 t = ((cfg0.win 5).blk t).view.read (Elt Ideal) (denseOf0 V c) := by
  show (cfg0.win 5).cut (grid0.coords t) ((dat0 V c).after 5 t) = _
  rw [body0_leaves V c t, pay0_rows V c t]
  exact (read_out0_rows (denseOf0 V c) t).symm

/-- An index of the result array is in point t's block iff each coordinate is in the block's range on its axis. -/
theorem mem_out_block0 (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v39).slice (win0_5.rect t)).set ↔ _
  rw [View.set_slice_whole, Rect.mem_set_unit]
  exact Iff.rfl

/-- The five blocks tile the result array: row r is in the block of point r / 5000. -/
theorem rows_covered0 (i : S25000x128.Idx) :
    ∃ t : Fin cfg0.N, (cfg0.win 5).flush t = true ∧ i ∈ ((cfg0.win 5).blk t).view.set := by
  have hi0 : (i 0).val < 25000 := idx2_lt0 i
  have hi1 : (i 1).val < 128 := idx2_lt1 i
  have ht : (i 0).val / 5000 < cfg0.N := lt_of_lt_of_eq (by omega) N_0.symm
  obtain ⟨-, -, -, -, -, -, -, -, -, -, e0, e1⟩ := block_index0 ⟨(i 0).val / 5000, ht⟩
  refine ⟨⟨(i 0).val / 5000, ht⟩, flush0_5 _, ?_⟩
  rw [mem_out_block0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- After launch 0 the result array is the rectified dense combine of the five arrays the launch found: every point
    writes back its block of that one whole-array function, and the blocks cover the array. -/
theorem arr0 : (dat0 (F := Ideal) V c).arrAt 5 cfg0.N
    = Cert.Sage.dense true (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 (denseOf0 V c) (fun t _ => writeback0 V c t) (rows_covered0)

end

/-! ## Launch 1: the index maps, each window's block as rows of its array, the write-back, the cover -/

/-- The printed index maps of launch 1, decided over its five grid points: the two packed operands and the result move
    with the grid point down the rows (block row t, block column 0); the weights and the bias stay at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point of launch 1 is below 5. -/
theorem point_lt1 (t : Fin cfg1.N) : t.val < 5 := lt_of_lt_of_eq t.isLt N_1

section
variable (V : (c : Dev nD) → (b : Ref sig .tc) → Buf (Elt Ideal) ((c : Thread nD τ).loc b)) (c : Dev nD)

/-- The first packed operand's block at point t is rows 5000 t … of its array: a block's coordinate is the block index
    times the block size plus the coordinate inside the block. -/
theorem iblk1_0_rows (t : Fin cfg1.N) :
    (iblk1 V c 0 t : Vec Ideal S5000x128 .f32) = rowBlock (V c (Pipeline.arrRef spec1 0)) t.val (point_lt1 t) := by
  obtain ⟨e0, e1, -⟩ := block_index1 t
  funext y
  unfold iblk1 rowBlock
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = t.val * 5000 + (y 0).val; rw [e0]; omega
  | ⟨1, _⟩ => show win1_0.index t (1 : Fin 2) * 128 + 1 * (y 1).val = (y 1).val; rw [e1]; omega

/-- The second packed operand's block at point t is rows 5000 t … of its array. -/
theorem iblk1_1_rows (t : Fin cfg1.N) :
    (iblk1 V c 1 t : Vec Ideal S5000x128 .f32) = rowBlock (V c (Pipeline.arrRef spec1 1)) t.val (point_lt1 t) := by
  obtain ⟨-, -, e0, e1, -⟩ := block_index1 t
  funext y
  unfold iblk1 rowBlock
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * (y 0).val = t.val * 5000 + (y 0).val; rw [e0]; omega
  | ⟨1, _⟩ => show win1_1.index t (1 : Fin 2) * 128 + 1 * (y 1).val = (y 1).val; rw [e1]; omega

/-- The first weight's block at every point is the whole 128 × 128 array. -/
theorem iblk1_2_whole (t : Fin cfg1.N) :
    (iblk1 V c 2 t : Vec Ideal S128x128 .f32) = V c (Pipeline.arrRef spec1 2) := by
  obtain ⟨-, -, -, -, e0, e1, -⟩ := block_index1 t
  funext y
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight's block at every point is the whole 128 × 128 array. -/
theorem iblk1_3_whole (t : Fin cfg1.N) :
    (iblk1 V c 3 t : Vec Ideal S128x128 .f32) = V c (Pipeline.arrRef spec1 3) := by
  obtain ⟨-, -, -, -, -, -, e0, e1, -⟩ := block_index1 t
  funext y
  unfold iblk1
  rw [View.read_apply]
  show V c (Pipeline.arrRef spec1 3) _ = V c (Pipeline.arrRef spec1 3) y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias's block at every point is the whole 1 × 128 row. -/
theorem iblk1_4_whole (t : Fin cfg1.N) :
    (iblk1 V c 4 t : Vec Ideal S1x128 .f32) = V c (Pipeline.arrRef spec1 4) := by
  obtain ⟨-, -, -, -, -, -, -, -, e0, e1, -⟩ := block_index1 t
  funext y
  unfold iblk1
  rw [View.read_apply]
  show V c (Pipeline.arrRef spec1 4) _ = V c (Pipeline.arrRef spec1 4) y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Block t of the result window, read off any 25000 × 128 array, is rows 5000 t … of that array. -/
theorem read_out1_rows (G : S25000x128.Idx → EReal) (t : Fin cfg1.N) :
    (((cfg1.win 5).blk t).view.read (Elt Ideal) G : Vec Ideal S5000x128 .f32) = rowBlock G t.val (point_lt1 t) := by
  obtain ⟨-, -, -, -, -, -, -, -, -, -, e0, e1⟩ := block_index1 t
  funext y
  unfold rowBlock
  rw [View.read_apply]
  show G _ = G _
  congr 1
  funext a
  apply Fin.ext
  match a with
  | ⟨0, _⟩ => show win1_5.index t (0 : Fin 2) * 5000 + 1 * (y 0).val = t.val * 5000 + (y 0).val; rw [e0]; omega
  | ⟨1, _⟩ => show win1_5.index t (1 : Fin 2) * 128 + 1 * (y 1).val = (y 1).val; rw [e1]; omega

/-- The rectified dense combine of the five arrays launch 1 finds, as one 25000 × 128 array. -/
abbrev denseOf1 : S25000x128.Idx → EReal :=
  Cert.Sage.dense true (V c (Pipeline.arrRef spec1 0)) (V c (Pipeline.arrRef spec1 1)) (V c (Pipeline.arrRef spec1 2))
    (V c (Pipeline.arrRef spec1 3)) (V c (Pipeline.arrRef spec1 4))

/-- What the body leaves in the result's staging buffer at point t: it loads its five whole staging buffers and stores
    the whole result buffer once, so the buffer ends holding the body's arithmetic of the five blocks. -/
theorem body1_leaves (t : Fin cfg1.N) :
    ((dat1 (F := Ideal) V c).after 5 t : Vec Ideal S5000x128 .f32)
      = k1_pay1 (iblk1 V c 0 t) (iblk1 V c 1 t) (iblk1 V c 2 t) (iblk1 V c 3 t) (iblk1 V c 4 t) := by
  rw [after1_5]
  unfold out1_5
  rw [View.canon_unit_zero zero_offsets]
  simp only [View.ld_unit_zero (S := S5000x128) zero_offsets, View.ld_unit_zero (S := S128x128) zero_offsets, View.ld_unit_zero (S := S1x128) zero_offsets]

/-- That arithmetic of the five blocks at point t is the t-th row block of the dense combine of the five arrays: the
    operands' blocks are their t-th row blocks, the weights' and the bias's blocks are the whole arrays. -/
theorem pay1_rows (t : Fin cfg1.N) :
    k1_pay1 (F := Ideal) (iblk1 V c 0 t) (iblk1 V c 1 t) (iblk1 V c 2 t) (iblk1 V c 3 t) (iblk1 V c 4 t)
      = rowBlock (denseOf1 V c) t.val (point_lt1 t) := by
  rw [iblk1_0_rows V c t, iblk1_1_rows V c t, iblk1_2_whole V c t, iblk1_3_whole V c t, iblk1_4_whole V c t]
  exact k1_pay1_rows _ _ _ _ _ _ _

/-- What point t writes back is block t of the dense combine of the five arrays as the launch finds them. -/
theorem writeback1 (t : Fin cfg1.N) :
    (dat1 (F := Ideal) V c).flushed 5 t = ((cfg1.win 5).blk t).view.read (Elt Ideal) (denseOf1 V c) := by
  show (cfg1.win 5).cut (grid1.coords t) ((dat1 V c).after 5 t) = _
  rw [body1_leaves V c t, pay1_rows V c t]
  exact (read_out1_rows (denseOf1 V c) t).symm

/-- An index of the result array is in point t's block iff each coordinate is in the block's range on its axis. -/
theorem mem_out_block1 (t : Fin cfg1.N) (i : S25000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v67).slice (win1_5.rect t)).set ↔ _
  rw [View.set_slice_whole, Rect.mem_set_unit]
  exact Iff.rfl

/-- The five blocks tile the result array: row r is in the block of point r / 5000. -/
theorem rows_covered1 (i : S25000x128.Idx) :
    ∃ t : Fin cfg1.N, (cfg1.win 5).flush t = true ∧ i ∈ ((cfg1.win 5).blk t).view.set := by
  have hi0 : (i 0).val < 25000 := idx2_lt0 i
  have hi1 : (i 1).val < 128 := idx2_lt1 i
  have ht : (i 0).val / 5000 < cfg1.N := lt_of_lt_of_eq (by omega) N_1.symm
  obtain ⟨-, -, -, -, -, -, -, -, -, -, e0, e1⟩ := block_index1 ⟨(i 0).val / 5000, ht⟩
  refine ⟨⟨(i 0).val / 5000, ht⟩, flush1_5 _, ?_⟩
  rw [mem_out_block1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- After launch 1 the result array is the rectified dense combine of the five arrays the launch found: every point
    writes back its block of that one whole-array function, and the blocks cover the array. -/
theorem arr1 : (dat1 (F := Ideal) V c).arrAt 5 cfg1.N
    = Cert.Sage.dense true (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 (denseOf1 V c) (fun t _ => writeback1 V c t) (rows_covered1)

end

/-! ## Launch 2: the index maps, each window's block as rows of its array, the write-back, the cover -/

/-- The printed index maps of launch 2, decided over its five grid points: the two packed operands and the result move
    with the grid point down the rows (block row t, block column 0); the weights and the bias stay at block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A grid point of launch 2 is below 5. -/
theorem point_lt2 (t : Fin cfg2.N) : t.val < 5 := lt_of_lt_of_eq t.isLt N_2

section
variable (V : (c : Dev nD) → (b : Ref sig .tc) → Buf (Elt Ideal) ((c : Thread nD τ).loc b)) (c : Dev nD)

/-- The first packed operand's block at point t is rows 5000 t … of its array: a block's coordinate is the block index
    times the block size plus the coordinate inside the block. -/
theorem iblk2_0_rows (t : Fin cfg2.N) :
    (iblk2 V c 0 t : Vec Ideal S5000x128 .f32) = rowBlock (V c (Pipeline.arrRef spec2 0)) t.val (point_lt2 t) := by
  obtain ⟨e0, e1, -⟩ := block_index2 t
  funext y
  unfold iblk2 rowBlock
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (y 0).val = t.val * 5000 + (y 0).val; rw [e0]; omega
  | ⟨1, _⟩ => show win2_0.index t (1 : Fin 2) * 128 + 1 * (y 1).val = (y 1).val; rw [e1]; omega

/-- The second packed operand's block at point t is rows 5000 t … of its array. -/
theorem iblk2_1_rows (t : Fin cfg2.N) :
    (iblk2 V c 1 t : Vec Ideal S5000x128 .f32) = rowBlock (V c (Pipeline.arrRef spec2 1)) t.val (point_lt2 t) := by
  obtain ⟨-, -, e0, e1, -⟩ := block_index2 t
  funext y
  unfold iblk2 rowBlock
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * (y 0).val = t.val * 5000 + (y 0).val; rw [e0]; omega
  | ⟨1, _⟩ => show win2_1.index t (1 : Fin 2) * 128 + 1 * (y 1).val = (y 1).val; rw [e1]; omega

/-- The first weight's block at every point is the whole 128 × 128 array. -/
theorem iblk2_2_whole (t : Fin cfg2.N) :
    (iblk2 V c 2 t : Vec Ideal S128x128 .f32) = V c (Pipeline.arrRef spec2 2) := by
  obtain ⟨-, -, -, -, e0, e1, -⟩ := block_index2 t
  funext y
  unfold iblk2
  rw [View.read_apply]
  show V c (Pipeline.arrRef spec2 2) _ = V c (Pipeline.arrRef spec2 2) y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The second weight's block at every point is the whole 128 × 128 array. -/
theorem iblk2_3_whole (t : Fin cfg2.N) :
    (iblk2 V c 3 t : Vec Ideal S128x128 .f32) = V c (Pipeline.arrRef spec2 3) := by
  obtain ⟨-, -, -, -, -, -, e0, e1, -⟩ := block_index2 t
  funext y
  unfold iblk2
  rw [View.read_apply]
  show V c (Pipeline.arrRef spec2 3) _ = V c (Pipeline.arrRef spec2 3) y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias's block at every point is the whole 1 × 128 row. -/
theorem iblk2_4_whole (t : Fin cfg2.N) :
    (iblk2 V c 4 t : Vec Ideal S1x128 .f32) = V c (Pipeline.arrRef spec2 4) := by
  obtain ⟨-, -, -, -, -, -, -, -, e0, e1, -⟩ := block_index2 t
  funext y
  unfold iblk2
  rw [View.read_apply]
  show V c (Pipeline.arrRef spec2 4) _ = V c (Pipeline.arrRef spec2 4) y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Block t of the result window, read off any 25000 × 128 array, is rows 5000 t … of that array. -/
theorem read_out2_rows (G : S25000x128.Idx → EReal) (t : Fin cfg2.N) :
    (((cfg2.win 5).blk t).view.read (Elt Ideal) G : Vec Ideal S5000x128 .f32) = rowBlock G t.val (point_lt2 t) := by
  obtain ⟨-, -, -, -, -, -, -, -, -, -, e0, e1⟩ := block_index2 t
  funext y
  unfold rowBlock
  rw [View.read_apply]
  show G _ = G _
  congr 1
  funext a
  apply Fin.ext
  match a with
  | ⟨0, _⟩ => show win2_5.index t (0 : Fin 2) * 5000 + 1 * (y 0).val = t.val * 5000 + (y 0).val; rw [e0]; omega
  | ⟨1, _⟩ => show win2_5.index t (1 : Fin 2) * 128 + 1 * (y 1).val = (y 1).val; rw [e1]; omega

/-- The dense combine of the five arrays launch 2 finds, as one 25000 × 128 array. -/
abbrev denseOf2 : S25000x128.Idx → EReal :=
  Cert.Sage.dense false (V c (Pipeline.arrRef spec2 0)) (V c (Pipeline.arrRef spec2 1)) (V c (Pipeline.arrRef spec2 2))
    (V c (Pipeline.arrRef spec2 3)) (V c (Pipeline.arrRef spec2 4))

/-- What the body leaves in the result's staging buffer at point t: it loads its five whole staging buffers and stores
    the whole result buffer once, so the buffer ends holding the body's arithmetic of the five blocks. -/
theorem body2_leaves (t : Fin cfg2.N) :
    ((dat2 (F := Ideal) V c).after 5 t : Vec Ideal S5000x128 .f32)
      = k2_pay1 (iblk2 V c 0 t) (iblk2 V c 1 t) (iblk2 V c 2 t) (iblk2 V c 3 t) (iblk2 V c 4 t) := by
  rw [after2_5]
  unfold out2_5
  rw [View.canon_unit_zero zero_offsets]
  simp only [View.ld_unit_zero (S := S5000x128) zero_offsets, View.ld_unit_zero (S := S128x128) zero_offsets, View.ld_unit_zero (S := S1x128) zero_offsets]

/-- That arithmetic of the five blocks at point t is the t-th row block of the dense combine of the five arrays: the
    operands' blocks are their t-th row blocks, the weights' and the bias's blocks are the whole arrays. -/
theorem pay2_rows (t : Fin cfg2.N) :
    k2_pay1 (F := Ideal) (iblk2 V c 0 t) (iblk2 V c 1 t) (iblk2 V c 2 t) (iblk2 V c 3 t) (iblk2 V c 4 t)
      = rowBlock (denseOf2 V c) t.val (point_lt2 t) := by
  rw [iblk2_0_rows V c t, iblk2_1_rows V c t, iblk2_2_whole V c t, iblk2_3_whole V c t, iblk2_4_whole V c t]
  exact k2_pay1_rows _ _ _ _ _ _ _

/-- What point t writes back is block t of the dense combine of the five arrays as the launch finds them. -/
theorem writeback2 (t : Fin cfg2.N) :
    (dat2 (F := Ideal) V c).flushed 5 t = ((cfg2.win 5).blk t).view.read (Elt Ideal) (denseOf2 V c) := by
  show (cfg2.win 5).cut (grid2.coords t) ((dat2 V c).after 5 t) = _
  rw [body2_leaves V c t, pay2_rows V c t]
  exact (read_out2_rows (denseOf2 V c) t).symm

/-- An index of the result array is in point t's block iff each coordinate is in the block's range on its axis. -/
theorem mem_out_block2 (t : Fin cfg2.N) (i : S25000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v95).slice (win2_5.rect t)).set ↔ _
  rw [View.set_slice_whole, Rect.mem_set_unit]
  exact Iff.rfl

/-- The five blocks tile the result array: row r is in the block of point r / 5000. -/
theorem rows_covered2 (i : S25000x128.Idx) :
    ∃ t : Fin cfg2.N, (cfg2.win 5).flush t = true ∧ i ∈ ((cfg2.win 5).blk t).view.set := by
  have hi0 : (i 0).val < 25000 := idx2_lt0 i
  have hi1 : (i 1).val < 128 := idx2_lt1 i
  have ht : (i 0).val / 5000 < cfg2.N := lt_of_lt_of_eq (by omega) N_2.symm
  obtain ⟨-, -, -, -, -, -, -, -, -, -, e0, e1⟩ := block_index2 ⟨(i 0).val / 5000, ht⟩
  refine ⟨⟨(i 0).val / 5000, ht⟩, flush2_5 _, ?_⟩
  rw [mem_out_block2]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e1]; omega

/-- After launch 2 the result array is the dense combine of the five arrays the launch found: every point
    writes back its block of that one whole-array function, and the blocks cover the array. -/
theorem arr2 : (dat2 (F := Ideal) V c).arrAt 5 cfg2.N
    = Cert.Sage.dense false (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 (denseOf2 V c) (fun t _ => writeback2 V c t) (rows_covered2)

end

end Cert.KernelIdeal.RegionValue

end
-- ==== Proof.Walk.lean ====
/-
  The packed program's result read back through its seven segments. The buffer contents at the segment boundaries are a
  fold from the launch memory: a stretch of host operations rewrites the buffers its operations name, a launch of
  the dense combine rewrites its output array to the dense combine of its five operand arrays and leaves every other
  buffer. Read at the result buffer, the fold is three layers in the packed arrangement, one after the other: the first
  two rectified, the last not, each over the same edge list (its sources, destinations and reciprocal in-degrees are
  computed in the first stretch and kept through the later segments) and its own two weights and bias.
-/
import proofs.«178403_j53257594470606_2_alg».proof.Proof.Spec
import proofs.«178403_j53257594470606_2_alg».proof.Proof.Stretches
import proofs.«178403_j53257594470606_2_alg».proof.Proof.Region
import proofs.«178403_j53257594470606_2_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen
open Cert.Sage

/-! ## The boundary contents, from the launch memory -/

section Boundaries

variable (m : (ℓ : Loc nD τ sig) → Buf (Elt Ideal) ℓ) (ρ : Dev nD → PrngReg) (c : Dev nD)

/-- The edge list's sources, destinations and reciprocal in-degrees, of the launch memory. -/
abbrev srcs : K.EdgeV := K.srcOf (m ((c : Thread nD τ).loc main_arg1))
abbrev dsts : K.EdgeV := K.dstOf (m ((c : Thread nD τ).loc main_arg1))
abbrev invs : K.Inv := K.invCnt (K.dstOf (m ((c : Thread nD τ).loc main_arg1)))

/-- The three layers' outputs. -/
def out1 : K.Feat := K.layer true (m ((c : Thread nD τ).loc main_arg0)) (m ((c : Thread nD τ).loc main_arg1)) (m ((c : Thread nD τ).loc main_arg2)) (m ((c : Thread nD τ).loc main_arg3)) (m ((c : Thread nD τ).loc main_arg4))
def out2 : K.Feat := K.layer true (out1 m c) (m ((c : Thread nD τ).loc main_arg1)) (m ((c : Thread nD τ).loc main_arg5)) (m ((c : Thread nD τ).loc main_arg6)) (m ((c : Thread nD τ).loc main_arg7))
def out3 : K.Feat := K.layer false (out2 m c) (m ((c : Thread nD τ).loc main_arg1)) (m ((c : Thread nD τ).loc main_arg8)) (m ((c : Thread nD τ).loc main_arg9)) (m ((c : Thread nD τ).loc main_arg10))

/-! ### After the first stretch -/

theorem W1_v1 : W1 m ρ c (Proc.devRef .tc main_v1) = srcs m c := h0_v1 (W0 m ρ c)
theorem W1_v3 : W1 m ρ c (Proc.devRef .tc main_v3) = dsts m c := h0_v3 (W0 m ρ c)
theorem W1_v12 : W1 m ρ c (Proc.devRef .tc main_v12) = invs m c := h0_v12 (W0 m ρ c)
theorem W1_arg5 : W1 m ρ c (Proc.devRef .tc main_arg5) = (m ((c : Thread nD τ).loc main_arg5)) := h0_arg5 (W0 m ρ c)
theorem W1_arg6 : W1 m ρ c (Proc.devRef .tc main_arg6) = (m ((c : Thread nD τ).loc main_arg6)) := h0_arg6 (W0 m ρ c)
theorem W1_arg7 : W1 m ρ c (Proc.devRef .tc main_arg7) = (m ((c : Thread nD τ).loc main_arg7)) := h0_arg7 (W0 m ρ c)
theorem W1_arg8 : W1 m ρ c (Proc.devRef .tc main_arg8) = (m ((c : Thread nD τ).loc main_arg8)) := h0_arg8 (W0 m ρ c)
theorem W1_arg9 : W1 m ρ c (Proc.devRef .tc main_arg9) = (m ((c : Thread nD τ).loc main_arg9)) := h0_arg9 (W0 m ρ c)
theorem W1_arg10 : W1 m ρ c (Proc.devRef .tc main_arg10) = (m ((c : Thread nD τ).loc main_arg10)) := h0_arg10 (W0 m ρ c)

/-! ### After the first launch: the first layer's output, packed -/

theorem W2_v39 : W2 m ρ c (Proc.devRef .tc main_v39) = dense true (K.pack (K.mean (m ((c : Thread nD τ).loc main_arg0)) (srcs m c) (dsts m c) (invs m c))) (K.pack (m ((c : Thread nD τ).loc main_arg0))) (K.bdiag (m ((c : Thread nD τ).loc main_arg2))) (K.bdiag (m ((c : Thread nD τ).loc main_arg3))) (K.bias2 (m ((c : Thread nD τ).loc main_arg4))) := by
  refine (W2_arr m ρ c 5).trans ?_
  rw [Cert.KernelIdeal.RegionValue.arr0 (V1 m ρ) c]
  show dense true (W1 m ρ c (Proc.devRef .tc main_v27)) (W1 m ρ c (Proc.devRef .tc main_v28)) (W1 m ρ c (Proc.devRef .tc main_v32)) (W1 m ρ c (Proc.devRef .tc main_v36)) (W1 m ρ c (Proc.devRef .tc main_v38)) = _
  rw [show W1 m ρ c (Proc.devRef .tc main_v27) = _ from h0_v27 (W0 m ρ c), show W1 m ρ c (Proc.devRef .tc main_v28) = _ from h0_v28 (W0 m ρ c),
    show W1 m ρ c (Proc.devRef .tc main_v32) = _ from h0_v32 (W0 m ρ c), show W1 m ρ c (Proc.devRef .tc main_v36) = _ from h0_v36 (W0 m ρ c),
    show W1 m ρ c (Proc.devRef .tc main_v38) = _ from h0_v38 (W0 m ρ c)]

theorem unpack_W2_v39 : K.unpack (W2 m ρ c (Proc.devRef .tc main_v39)) = out1 m c := by
  rw [W2_v39]; rfl

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v12 : W2 m ρ c (Proc.devRef .tc main_v12) = W1 m ρ c (Proc.devRef .tc main_v12) := W2_of_ne m ρ c main_v12 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)

/-! ### After the second stretch and the second launch: the second layer's output, packed -/

theorem W3_v1 : W3 m ρ c (Proc.devRef .tc main_v1) = srcs m c := (h1_v1 (W2 m ρ c)).trans ((W2_v1 m ρ c).trans (W1_v1 m ρ c))
theorem W3_v3 : W3 m ρ c (Proc.devRef .tc main_v3) = dsts m c := (h1_v3 (W2 m ρ c)).trans ((W2_v3 m ρ c).trans (W1_v3 m ρ c))
theorem W3_v12 : W3 m ρ c (Proc.devRef .tc main_v12) = invs m c := (h1_v12 (W2 m ρ c)).trans ((W2_v12 m ρ c).trans (W1_v12 m ρ c))
theorem W3_arg8 : W3 m ρ c (Proc.devRef .tc main_arg8) = (m ((c : Thread nD τ).loc main_arg8)) := (h1_arg8 (W2 m ρ c)).trans ((W2_arg8 m ρ c).trans (W1_arg8 m ρ c))
theorem W3_arg9 : W3 m ρ c (Proc.devRef .tc main_arg9) = (m ((c : Thread nD τ).loc main_arg9)) := (h1_arg9 (W2 m ρ c)).trans ((W2_arg9 m ρ c).trans (W1_arg9 m ρ c))
theorem W3_arg10 : W3 m ρ c (Proc.devRef .tc main_arg10) = (m ((c : Thread nD τ).loc main_arg10)) := (h1_arg10 (W2 m ρ c)).trans ((W2_arg10 m ρ c).trans (W1_arg10 m ρ c))

theorem W4_v67 : W4 m ρ c (Proc.devRef .tc main_v67) = dense true (K.pack (K.mean (out1 m c) (srcs m c) (dsts m c) (invs m c))) (K.pack (out1 m c)) (K.bdiag (m ((c : Thread nD τ).loc main_arg5))) (K.bdiag (m ((c : Thread nD τ).loc main_arg6))) (K.bias2 (m ((c : Thread nD τ).loc main_arg7))) := by
  refine (W4_arr m ρ c 5).trans ?_
  rw [Cert.KernelIdeal.RegionValue.arr1 (V3 m ρ) c]
  show dense true (W3 m ρ c (Proc.devRef .tc main_v55)) (W3 m ρ c (Proc.devRef .tc main_v56)) (W3 m ρ c (Proc.devRef .tc main_v60)) (W3 m ρ c (Proc.devRef .tc main_v64)) (W3 m ρ c (Proc.devRef .tc main_v66)) = _
  rw [show W3 m ρ c (Proc.devRef .tc main_v55) = _ from h1_v55 (W2 m ρ c), show W3 m ρ c (Proc.devRef .tc main_v56) = _ from h1_v56 (W2 m ρ c),
    show W3 m ρ c (Proc.devRef .tc main_v60) = _ from h1_v60 (W2 m ρ c), show W3 m ρ c (Proc.devRef .tc main_v64) = _ from h1_v64 (W2 m ρ c),
    show W3 m ρ c (Proc.devRef .tc main_v66) = _ from h1_v66 (W2 m ρ c),
    unpack_W2_v39, W2_v1, W2_v3, W2_v12, W1_v1, W1_v3, W1_v12, W2_arg5, W2_arg6, W2_arg7, W1_arg5, W1_arg6, W1_arg7]

theorem unpack_W4_v67 : K.unpack (W4 m ρ c (Proc.devRef .tc main_v67)) = out2 m c := by
  rw [W4_v67]; rfl

theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v12 : W4 m ρ c (Proc.devRef .tc main_v12) = W3 m ρ c (Proc.devRef .tc main_v12) := W4_of_ne m ρ c main_v12 (by decide)
theorem W4_arg8 : W4 m ρ c (Proc.devRef .tc main_arg8) = W3 m ρ c (Proc.devRef .tc main_arg8) := W4_of_ne m ρ c main_arg8 (by decide)
theorem W4_arg9 : W4 m ρ c (Proc.devRef .tc main_arg9) = W3 m ρ c (Proc.devRef .tc main_arg9) := W4_of_ne m ρ c main_arg9 (by decide)
theorem W4_arg10 : W4 m ρ c (Proc.devRef .tc main_arg10) = W3 m ρ c (Proc.devRef .tc main_arg10) := W4_of_ne m ρ c main_arg10 (by decide)

/-! ### After the third stretch, the third launch and the last stretch: the third layer's output -/

theorem W6_v95 : W6 m ρ c (Proc.devRef .tc main_v95) = dense false (K.pack (K.mean (out2 m c) (srcs m c) (dsts m c) (invs m c))) (K.pack (out2 m c)) (K.bdiag (m ((c : Thread nD τ).loc main_arg8))) (K.bdiag (m ((c : Thread nD τ).loc main_arg9))) (K.bias2 (m ((c : Thread nD τ).loc main_arg10))) := by
  refine (W6_arr m ρ c 5).trans ?_
  rw [Cert.KernelIdeal.RegionValue.arr2 (V5 m ρ) c]
  show dense false (W5 m ρ c (Proc.devRef .tc main_v83)) (W5 m ρ c (Proc.devRef .tc main_v84)) (W5 m ρ c (Proc.devRef .tc main_v88)) (W5 m ρ c (Proc.devRef .tc main_v92)) (W5 m ρ c (Proc.devRef .tc main_v94)) = _
  rw [show W5 m ρ c (Proc.devRef .tc main_v83) = _ from h2_v83 (W4 m ρ c), show W5 m ρ c (Proc.devRef .tc main_v84) = _ from h2_v84 (W4 m ρ c),
    show W5 m ρ c (Proc.devRef .tc main_v88) = _ from h2_v88 (W4 m ρ c), show W5 m ρ c (Proc.devRef .tc main_v92) = _ from h2_v92 (W4 m ρ c),
    show W5 m ρ c (Proc.devRef .tc main_v94) = _ from h2_v94 (W4 m ρ c),
    unpack_W4_v67, W4_v1, W4_v3, W4_v12, W3_v1, W3_v3, W3_v12, W4_arg8, W4_arg9, W4_arg10, W3_arg8, W3_arg9, W3_arg10]

/-- The result buffer at the last boundary holds the third layer's output. -/
theorem result : W7 m ρ c (Proc.devRef .tc main_v96) = out3 m c := by
  refine (h3_v96 (W6 m ρ c)).trans ?_
  rw [W6_v95]; rfl

end Boundaries

end Cert.KernelIdeal.Walk

end
-- ==== Proof.RefValue.lean ====
/-
  What the plain program computes: its result is three layers in the plain arrangement, one after the other — the
  first two rectified, the last not — each over the same edge list and its own two weights and bias. The program's
  run states the result as one composed term of the argument arrays; that term is, operation for operation, the
  three nested layers.
-/
import proofs.«178403_j53257594470606_2_alg».proof.Proof.Spec
import proofs.«178403_j53257594470606_2_alg».proof.Proof.Gen.ReferenceIdeal.Run

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value
open Cert.Sage

/-- The three nested layers, of the argument arrays on device `c`. -/
def net (m : (ℓ : Loc nD τ sig) → Buf (Elt Ideal) ℓ) (c : Dev nD) : R.Feat :=
  R.layer false
    (R.layer true
      (R.layer true (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg1))
      (m ((c.tc : Thread nD τ).loc main_arg5)) (m ((c.tc : Thread nD τ).loc main_arg6)) (m ((c.tc : Thread nD τ).loc main_arg7)))
    (m ((c.tc : Thread nD τ).loc main_arg1))
    (m ((c.tc : Thread nD τ).loc main_arg8)) (m ((c.tc : Thread nD τ).loc main_arg9)) (m ((c.tc : Thread nD τ).loc main_arg10))

/-- The run's result term is the three nested layers. -/
theorem result_eq (m : (ℓ : Loc nD τ sig) → Buf (Elt Ideal) ℓ) (c : Dev nD) :
    res_out0 (F := Ideal) m c = net m c := by
  unfold net R.layer
  simp only [↓reduceIte, Bool.false_eq_true]
  show res_main_v77 (F := Ideal) m c = _
  unfold res_main_v77
  rfl

end Cert.ReferenceIdeal.RefValue

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.Mean.lean ====
/-
  The neighbour mean is the same array in the two arrangements.

  Both arrangements form, per destination node, the same sum of gathered feature rows: the packed one passes the rows
  through a narrower float format and back, which is the identity on the extended reals, and the two programs'
  dimension records hold the same lists over the same shapes.

  The packed arrangement multiplies the sum by 1 / max(deg, 1), the in-degree deg being a rank-1 scatter of ones; the
  plain arrangement divides it by max(deg, 1), deg being a scatter of ones into a one-column array. Either scatter reads,
  at node n, zero plus the number of edges whose destination is n. As max(deg, 1) ≥ 1 it is not zero, and for a
  divisor y that is not zero x * (1 / y) and x / y are the same extended real (both are x times the reciprocal of y),
  whatever x is, infinite or not.
-/
import proofs.«178403_j53257594470606_2_alg».proof.Proof.Spec
import proofs.«178403_j53257594470606_2_alg».proof.Proof.LibScatterAdd
import Idealize.ShloMosaic.Lib.ValueIdx
import Idealize.ShloMosaic.Lib.IdealHost
import Idealize.ShloMosaic.Lib.Pipeline.Value

noncomputable section

open scoped BigOperators

namespace Cert.Sage

open Idealize.ShloMosaic Idealize.ShloMosaic.ValueIdx

/-- The two arrangements form the same per-node sum of in-neighbour rows: the format change and its inverse are the
    identity on the extended reals, and the two programs' gather and scatter records are the same records. -/
theorem agg_eq (h : K.Feat) (s d : K.EdgeV) : K.agg h s d = R.agg h s d := rfl

/-- The in-degree of node n: the number of edges whose destination (read signed) is n, as an extended real. -/
def deg (d : K.EdgeV) (n : Fin 50000) : EReal :=
  ∑ a : Fin 800000, if ((K.colIdx d) (ix2 a 0)).toInt = (n.val : ℤ) then (1 : EReal) else 0

/-- The accumulating rank-1 row scatter, as the program spells it, read at row r: the operand there plus the updates
    whose index names r. -/
theorem hostScatterAdd1_apply {R N w : Nat} (wf) (Z : FVec Ideal ⟨1, ![R]⟩ .f32) (I : IVec ⟨2, ![N, 1]⟩ w)
    (U : FVec Ideal ⟨1, ![N]⟩ .f32) (r : Fin R) :
    Host.scatterAdd (F := Ideal) (Cert.ScatterRows.dims1 (R := R) wf) Z I U (ix1 r)
      = Z (ix1 r) + ∑ a : Fin N, if (I (ix2 a 0)).toInt = (r.val : ℤ) then U (ix1 a) else 0 :=
  Cert.ScatterRows.scatterAdd1_apply wf Z I U r

/-- The accumulating row scatter with C columns, as the program spells it, read at (r, c). -/
theorem hostScatterAdd2_apply {R N C w : Nat} (wf) (Z : FVec Ideal ⟨2, ![R, C]⟩ .f32) (I : IVec ⟨2, ![N, 1]⟩ w)
    (U : FVec Ideal ⟨2, ![N, C]⟩ .f32) (r : Fin R) (c : Fin C) :
    Host.scatterAdd (F := Ideal) (Cert.ScatterRows.dims2 (R := R) wf) Z I U (ix2 r c)
      = Z (ix2 r c) + ∑ a : Fin N, if (I (ix2 a 0)).toInt = (r.val : ℤ) then U (ix2 a c) else 0 :=
  Cert.ScatterRows.scatterAdd2_apply wf Z I U r c

section packed
open Cert.KernelIdeal Cert.KernelIdeal.Gen

/-- The rank-1 scatter of ones into zeros reads, at node n, zero plus the in-degree of n. -/
theorem K.cnt_apply (d : K.EdgeV) (n : Fin 50000) :
    Host.scatterAdd (F := Ideal) scatter_S50000_S800000x1_S800000_n_0_0_1
        (broadcastInDim S50000 ![] bcast_S_S50000 (constant (F := Ideal) S_ .f32 0x00000000#32)) (K.colIdx d)
        (broadcastInDim S800000 ![] bcast_S_S800000 (constant (F := Ideal) S_ .f32 0x3F800000#32)) (ix1 n)
      = 0 + deg d n := by
  refine (hostScatterAdd1_apply scatter_S50000_S800000x1_S800000_n_0_0_1_wf _ (K.colIdx d) _ n).trans ?_
  show Ideal.ofBits .f32 0x00000000#32 + (∑ a : Fin 800000,
    if (K.colIdx d (ix2 a 0)).toInt = (n.val : ℤ) then Ideal.ofBits .f32 0x3F800000#32 else 0) = _
  rw [Ideal.ofBits_zero_f32, Ideal.ofBits_one_f32]
  rfl

/-- The packed arrangement's reciprocal column reads, at node n, one over max(in-degree, 1). -/
theorem K.invCnt_apply (d : K.EdgeV) (n : Fin 50000) :
    K.invCnt d (ix2 n 0) = Ideal.div 1 (max (0 + deg d n) 1) := by
  unfold K.invCnt
  refine (shapeCast_apply _ _ (ix2 n 0) (ix1 n) ?_).trans ?_
  · rw [Shape.rowMajor_val_one, Shape.rowMajor_val_two]
    show n.val = n.val * 1 + 0
    omega
  rw [hostDivf_apply, maximumf_apply, K.cnt_apply]
  show Ideal.div (Ideal.ofBits .f32 0x3F800000#32) (max (0 + deg d n) (Ideal.ofBits .f32 0x3F800000#32)) = _
  rw [Ideal.ofBits_one_f32]

/-- The packed arrangement's mean reads, at (n, c), the sum there times the reciprocal column at n. -/
theorem K.mean_apply (h : K.Feat) (s d : K.EdgeV) (inv : K.Inv) (n : Fin 50000) (c : Fin 64) :
    K.mean h s d inv (ix2 n c) = K.agg h s d (ix2 n c) * inv (ix2 n 0) := by
  have hb : broadcastInDim S50000x64 ![0, 1] bcast_S50000x1_S50000x64_0_1 inv (ix2 n c) = inv (ix2 n 0) :=
    broadcastInDim_apply _ _ _ (ix2 n c) (ix2 n 0) (fun a => match a with | ⟨0, _⟩ => rfl | ⟨1, _⟩ => rfl)
  unfold K.mean
  rw [mulf_apply, hb]

end packed

section plain
open Cert.ReferenceIdeal Cert.ReferenceIdeal.Gen

/-- The plain arrangement's index column is the packed one's. -/
theorem colIdx_eq (d : K.EdgeV) : R.colIdx d = K.colIdx d := rfl

/-- The scatter of ones into a column of zeros reads, at node n, zero plus the in-degree of n. -/
theorem R.cnt_apply (d : K.EdgeV) (n : Fin 50000) :
    Host.scatterAdd (F := Ideal) scatter_S50000x1_S800000x1_S800000x1_1_0_0_1
        (broadcastInDim S50000x1 ![] bcast_S_S50000x1 (constant (F := Ideal) S_ .f32 0x00000000#32)) (R.colIdx d)
        (broadcastInDim S800000x1 ![] bcast_S_S800000x1 (constant (F := Ideal) S_ .f32 0x3F800000#32)) (ix2 n 0)
      = 0 + deg d n := by
  refine (hostScatterAdd2_apply scatter_S50000x1_S800000x1_S800000x1_1_0_0_1_wf _ (R.colIdx d) _ n 0).trans ?_
  show Ideal.ofBits .f32 0x00000000#32 + (∑ a : Fin 800000,
    if (K.colIdx d (ix2 a 0)).toInt = (n.val : ℤ) then Ideal.ofBits .f32 0x3F800000#32 else 0) = _
  rw [Ideal.ofBits_zero_f32, Ideal.ofBits_one_f32]
  rfl

/-- The plain arrangement's divisor reads, at (n, c), max(in-degree of n, 1). -/
theorem R.cntB_apply (d : K.EdgeV) (n : Fin 50000) (c : Fin 64) :
    R.cntB d (ix2 n c) = max (0 + deg d n) 1 := by
  unfold R.cntB
  refine (broadcastInDim_apply _ _ _ (ix2 n c) (ix2 n 0)
    (fun a => match a with | ⟨0, _⟩ => rfl | ⟨1, _⟩ => rfl)).trans ?_
  rw [maximumf_apply, R.cnt_apply]
  show max (0 + deg d n) (Ideal.ofBits .f32 0x3F800000#32) = _
  rw [Ideal.ofBits_one_f32]

/-- The plain arrangement's mean reads, at any index, the sum there divided by the divisor there. -/
theorem R.mean_apply (h : K.Feat) (s d : K.EdgeV) (j : S50000x64.Idx) :
    R.mean h s d j = Ideal.div (R.agg h s d j) (R.cntB d j) := by
  unfold R.mean
  exact hostDivf_apply _ _ _

end plain

/-- The neighbour mean is the same array in the two arrangements: at (n, c) the packed one is the sum times
    1 / max(deg n, 1), the plain one the sum over max(deg n, 1), and the divisor, at least 1, is not zero. -/
theorem mean_eq (h : K.Feat) (s d : K.EdgeV) : K.mean h s d (K.invCnt d) = R.mean h s d := by
  funext j
  obtain ⟨n, c, rfl⟩ : ∃ (n : Fin 50000) (c : Fin 64), j = ix2 n c := ⟨j 0, j 1, eq_ix2 j⟩
  have hpos : (0 : EReal) < max (0 + deg d n) 1 := lt_of_lt_of_le zero_lt_one (le_max_right _ _)
  rw [K.mean_apply, R.mean_apply, K.invCnt_apply, R.cntB_apply, agg_eq]
  exact Ideal.mul_one_div (ne_of_gt hpos)

end Cert.Sage

end
-- ==== Proof.DenseAlg.lean ====
/-
  The dense combine in the packed arrangement equals the plain affine map, index by index.

  The packed arrangement lays two consecutive node rows side by side (50000 × 64 re-laid as 25000 × 128, keeping
  row-major positions), multiplies by the 128 × 128 block-diagonal weights [[W, 0], [0, W]], adds the bias written
  twice in a 1 × 128 row, and re-lays the result as 50000 × 64. At (n, c) the re-laying reads packed position
  (p, q) with p · 128 + q = n · 64 + c, that is p = n / 2 and q = (n % 2) · 64 + c. The 128 contracted positions split
  into two halves of 64: in the half whose block of the weight is off the diagonal every term is x · 0 = 0, for every
  extended real x, so that half sums to 0; in the other half the terms are a (n, k) · W (k, c), k below 64. So the packed
  combine at (n, c) is (∑ mn (n, k) · Wl (k, c) + ∑ h (n, k) · Wr (k, c)) + b c. The plain arrangement is
  (∑ mn (n, k) · Wl (k, c) + b c) + ∑ h (n, k) · Wr (k, c); the two agree because addition of extended reals is
  commutative and associative. Rectification is the maximum with 0 on both sides. No finiteness is used anywhere.
-/
import proofs.«178403_j53257594470606_2_alg».proof.Proof.Spec
import proofs.«178403_j53257594470606_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.Sage

open Idealize.ShloMosaic Idealize.ShloMosaic.ValueIdx

/-! ## Sums over 128 contracted positions, in two halves of 64 -/

/-- A sum over 128 positions is the sum over the first 64 plus the sum over the last 64. -/
theorem sum_fin128 (f : Fin 128 → EReal) :
    ∑ k : Fin 128, f k = (∑ k : Fin 64, f ⟨k.val, by omega⟩) + (∑ k : Fin 64, f ⟨64 + k.val, by omega⟩) :=
  Fin.sum_univ_add (a := 64) (b := 64) f

section Packed

open Cert.KernelIdeal Cert.KernelIdeal.Gen

/-! ## The packed arrangement's operands read at an index -/

/-- Packing keeps row-major positions: packed entry (p, q) is entry (n, c) whenever n · 64 + c = p · 128 + q. -/
theorem pack_apply (a : K.Feat) (p : Fin 25000) (q : Fin 128) (n : Fin 50000) (c : Fin 64)
    (h : n.val * 64 + c.val = p.val * 128 + q.val) : K.pack a (ix2 p q) = a (ix2 n c) := by
  unfold K.pack
  refine shapeCast_apply _ _ _ (ix2 n c) ?_
  rw [Shape.rowMajor_val_two, Shape.rowMajor_val_two]
  exact h

/-- Unpacking keeps row-major positions: entry (n, c) is packed entry (p, q) whenever p · 128 + q = n · 64 + c. -/
theorem unpack_apply (y : K.Packed) (n : Fin 50000) (c : Fin 64) (p : Fin 25000) (q : Fin 128)
    (h : p.val * 128 + q.val = n.val * 64 + c.val) : K.unpack y (ix2 n c) = y (ix2 p q) := by
  unfold K.unpack
  refine shapeCast_apply _ _ _ (ix2 p q) ?_
  rw [Shape.rowMajor_val_two, Shape.rowMajor_val_two]
  exact h

/-- The upper-left block of the block-diagonal weight is the weight. -/
theorem bdiag_apply_00 (w : K.Wt) (kk q : Fin 128) (k c : Fin 64) (hk : kk.val = k.val) (hq : q.val = c.val) :
    K.bdiag w (ix2 kk q) = w (ix2 k c) := by
  unfold K.bdiag
  refine (concatenate_pair_apply_left (t := S128x128) (s₁ := S64x128) (s₂ := S64x128) 0 _ _ _ (ix2 kk q) rfl (ix2 k q)
    (fun b => match b with | ⟨0, _⟩ => hk.symm | ⟨1, _⟩ => rfl)).trans ?_
  exact concatenate_pair_apply_left (t := S64x128) (s₁ := S64x64) (s₂ := S64x64) 1 _ _ _ (ix2 k q) rfl (ix2 k c)
    (fun b => match b with | ⟨0, _⟩ => rfl | ⟨1, _⟩ => hq.symm)

/-- The upper-right block of the block-diagonal weight is zero. -/
theorem bdiag_apply_01 (w : K.Wt) (kk q : Fin 128) (k c : Fin 64) (hk : kk.val = k.val) (hq : q.val = 64 + c.val) :
    K.bdiag w (ix2 kk q) = 0 := by
  unfold K.bdiag
  refine (concatenate_pair_apply_left (t := S128x128) (s₁ := S64x128) (s₂ := S64x128) 0 _ _ _ (ix2 kk q) rfl (ix2 k q)
    (fun b => match b with | ⟨0, _⟩ => hk.symm | ⟨1, _⟩ => rfl)).trans ?_
  refine (concatenate_pair_apply_right (t := S64x128) (s₁ := S64x64) (s₂ := S64x64) 1 _ _ _ (ix2 k q) rfl rfl (ix2 k c)
    (fun b hb => match b, hb with | ⟨0, _⟩, _ => rfl | ⟨1, _⟩, hb => absurd rfl hb)
    (by show c.val + 64 = q.val; omega)).trans ?_
  exact Ideal.ofBits_zero_f32

/-- The lower-left block of the block-diagonal weight is zero. -/
theorem bdiag_apply_10 (w : K.Wt) (kk q : Fin 128) (k c : Fin 64) (hk : kk.val = 64 + k.val) (hq : q.val = c.val) :
    K.bdiag w (ix2 kk q) = 0 := by
  unfold K.bdiag
  refine (concatenate_pair_apply_right (t := S128x128) (s₁ := S64x128) (s₂ := S64x128) 0 _ _ _ (ix2 kk q) rfl rfl (ix2 k q)
    (fun b hb => match b, hb with | ⟨0, _⟩, hb => absurd rfl hb | ⟨1, _⟩, _ => rfl)
    (by show k.val + 64 = kk.val; omega)).trans ?_
  refine (concatenate_pair_apply_left (t := S64x128) (s₁ := S64x64) (s₂ := S64x64) 1 _ _ _ (ix2 k q) rfl (ix2 k c)
    (fun b => match b with | ⟨0, _⟩ => rfl | ⟨1, _⟩ => hq.symm)).trans ?_
  exact Ideal.ofBits_zero_f32

/-- The lower-right block of the block-diagonal weight is the weight. -/
theorem bdiag_apply_11 (w : K.Wt) (kk q : Fin 128) (k c : Fin 64) (hk : kk.val = 64 + k.val) (hq : q.val = 64 + c.val) :
    K.bdiag w (ix2 kk q) = w (ix2 k c) := by
  unfold K.bdiag
  refine (concatenate_pair_apply_right (t := S128x128) (s₁ := S64x128) (s₂ := S64x128) 0 _ _ _ (ix2 kk q) rfl rfl (ix2 k q)
    (fun b hb => match b, hb with | ⟨0, _⟩, hb => absurd rfl hb | ⟨1, _⟩, _ => rfl)
    (by show k.val + 64 = kk.val; omega)).trans ?_
  exact concatenate_pair_apply_right (t := S64x128) (s₁ := S64x64) (s₂ := S64x64) 1 _ _ _ (ix2 k q) rfl rfl (ix2 k c)
    (fun b hb => match b, hb with | ⟨0, _⟩, _ => rfl | ⟨1, _⟩, hb => absurd rfl hb)
    (by show c.val + 64 = q.val; omega)

/-- The first half of the doubled bias row is the bias. -/
theorem bias2_apply_lo (b : K.Bias) (q : Fin 128) (c : Fin 64) (hq : q.val = c.val) :
    K.bias2 b (ix2 0 q) = b (ix1 c) := by
  unfold K.bias2
  refine (shapeCast_apply _ _ _ (ix1 q) ?_).trans ?_
  · rw [Shape.rowMajor_val_one, Shape.rowMajor_val_two]
    show q.val = 0 * 128 + q.val
    omega
  exact concatenate_pair_apply_left (t := S128) (s₁ := S64) (s₂ := S64) 0 _ _ _ (ix1 q) rfl (ix1 c)
    (fun a => match a with | ⟨0, _⟩ => hq.symm)

/-- The second half of the doubled bias row is the bias again. -/
theorem bias2_apply_hi (b : K.Bias) (q : Fin 128) (c : Fin 64) (hq : q.val = 64 + c.val) :
    K.bias2 b (ix2 0 q) = b (ix1 c) := by
  unfold K.bias2
  refine (shapeCast_apply _ _ _ (ix1 q) ?_).trans ?_
  · rw [Shape.rowMajor_val_one, Shape.rowMajor_val_two]
    show q.val = 0 * 128 + q.val
    omega
  exact concatenate_pair_apply_right (t := S128) (s₁ := S64) (s₂ := S64) 0 _ _ _ (ix1 q) rfl rfl (ix1 c)
    (fun a ha => match a, ha with | ⟨0, _⟩, ha => absurd rfl ha)
    (by show c.val + 64 = q.val; omega)

/-! ## The packed products -/

/-- The packed array against the block-diagonal weight, at packed position (p, q) with n · 64 + c = p · 128 + q: the
    128 contracted positions split into two halves of 64; in the half whose block of the weight is off the diagonal
    every term is x · 0 = 0 (for every extended real x), in the other the terms are a (n, k) · w (k, c). -/
theorem sum_pack_bdiag (a : K.Feat) (w : K.Wt) (p : Fin 25000) (q : Fin 128) (n : Fin 50000) (c : Fin 64)
    (h : n.val * 64 + c.val = p.val * 128 + q.val) :
    ∑ k : Fin 128, K.pack a (ix2 p k) * K.bdiag w (ix2 k q) = ∑ k : Fin 64, a (ix2 n k) * w (ix2 k c) := by
  refine (sum_fin128 _).trans ?_
  rcases Nat.lt_or_ge q.val 64 with hq | hq
  · have hc : q.val = c.val := by omega
    have e1 : ∀ k : Fin 64, K.pack a (ix2 p ⟨k.val, by omega⟩) * K.bdiag w (ix2 ⟨k.val, by omega⟩ q)
        = a (ix2 n k) * w (ix2 k c) := fun k => by
      rw [pack_apply a p _ n k (by show n.val * 64 + k.val = p.val * 128 + k.val; omega),
        bdiag_apply_00 w _ q k c rfl hc]
    have e2 : ∀ k : Fin 64, K.pack a (ix2 p ⟨64 + k.val, by omega⟩) * K.bdiag w (ix2 ⟨64 + k.val, by omega⟩ q)
        = 0 := fun k => by
      rw [bdiag_apply_10 w _ q k c rfl hc, mul_zero]
    exact (congrArg₂ (· + ·) (Finset.sum_congr rfl fun k _ => e1 k) (Finset.sum_eq_zero fun k _ => e2 k)).trans (add_zero _)
  · have hc : q.val = 64 + c.val := by omega
    have e1 : ∀ k : Fin 64, K.pack a (ix2 p ⟨k.val, by omega⟩) * K.bdiag w (ix2 ⟨k.val, by omega⟩ q)
        = 0 := fun k => by
      rw [bdiag_apply_01 w _ q k c rfl hc, mul_zero]
    have e2 : ∀ k : Fin 64, K.pack a (ix2 p ⟨64 + k.val, by omega⟩) * K.bdiag w (ix2 ⟨64 + k.val, by omega⟩ q)
        = a (ix2 n k) * w (ix2 k c) := fun k => by
      rw [pack_apply a p _ n k (by show n.val * 64 + k.val = p.val * 128 + (64 + k.val); omega),
        bdiag_apply_11 w _ q k c rfl hc]
    exact (congrArg₂ (· + ·) (Finset.sum_eq_zero fun k _ => e1 k) (Finset.sum_congr rfl fun k _ => e2 k)).trans (zero_add _)

/-- The dense combine of the packed operands at packed position (p, q) with n · 64 + c = p · 128 + q is the
    unpacked combine at (n, c): (∑ mn (n, k) · Wl (k, c) + ∑ h (n, k) · Wr (k, c)) + b c. -/
theorem denseAt_packed (mn h : K.Feat) (Wl Wr : K.Wt) (b : K.Bias) (p : Fin 25000) (q : Fin 128) (n : Fin 50000)
    (c : Fin 64) (hpq : n.val * 64 + c.val = p.val * 128 + q.val) :
    denseAt (K.pack mn) (K.pack h) (K.bdiag Wl) (K.bdiag Wr) (K.bias2 b) p q
      = ((∑ k : Fin 64, mn (ix2 n k) * Wl (ix2 k c)) + (∑ k : Fin 64, h (ix2 n k) * Wr (ix2 k c))) + b (ix1 c) := by
  have hb : K.bias2 b (ix2 0 q) = b (ix1 c) := by
    rcases Nat.lt_or_ge q.val 64 with hq | hq
    · exact bias2_apply_lo b q c (by omega)
    · exact bias2_apply_hi b q c (by omega)
  exact congrArg₂ (· + ·)
    (congrArg₂ (· + ·) (sum_pack_bdiag mn Wl p q n c hpq) (sum_pack_bdiag h Wr p q n c hpq)) hb

/-- The unpacked dense combine at (n, c). -/
theorem left_apply (rl : Bool) (mn h : K.Feat) (Wl Wr : K.Wt) (b : K.Bias) (n : Fin 50000) (c : Fin 64) :
    K.unpack (dense rl (K.pack mn) (K.pack h) (K.bdiag Wl) (K.bdiag Wr) (K.bias2 b)) (ix2 n c)
      = if rl then max (((∑ k : Fin 64, mn (ix2 n k) * Wl (ix2 k c)) + (∑ k : Fin 64, h (ix2 n k) * Wr (ix2 k c))) + b (ix1 c)) 0
        else ((∑ k : Fin 64, mn (ix2 n k) * Wl (ix2 k c)) + (∑ k : Fin 64, h (ix2 n k) * Wr (ix2 k c))) + b (ix1 c) := by
  have hp : n.val / 2 < 25000 := by omega
  have hq : (n.val % 2) * 64 + c.val < 128 := by omega
  have hpq : n.val * 64 + c.val = (⟨n.val / 2, hp⟩ : Fin 25000).val * 128 + (⟨(n.val % 2) * 64 + c.val, hq⟩ : Fin 128).val := by
    show n.val * 64 + c.val = n.val / 2 * 128 + ((n.val % 2) * 64 + c.val)
    omega
  refine (unpack_apply _ n c ⟨n.val / 2, hp⟩ ⟨(n.val % 2) * 64 + c.val, hq⟩ hpq.symm).trans ?_
  have hd := denseAt_packed mn h Wl Wr b ⟨n.val / 2, hp⟩ ⟨(n.val % 2) * 64 + c.val, hq⟩ n c hpq
  cases rl
  · exact hd
  · exact congrArg (max · 0) hd

end Packed

section Plain

open Cert.ReferenceIdeal Cert.ReferenceIdeal.Gen

/-! ## The plain arrangement read at an index -/

/-- The plain affine map at (n, c): (∑ mn (n, k) · Wl (k, c) + b c) + ∑ h (n, k) · Wr (k, c). Each product is the
    textbook matrix product, and the bias, spread first to a 1 × 64 row and then over the 50000 rows, reads b c. -/
theorem affine_apply (mn h : R.Feat) (Wl Wr : R.Wt) (b : R.Bias) (n : Fin 50000) (c : Fin 64) :
    R.affine mn h Wl Wr b (ix2 n c)
      = ((∑ k : Fin 64, mn (ix2 n k) * Wl (ix2 k c)) + b (ix1 c)) + (∑ k : Fin 64, h (ix2 n k) * Wr (ix2 k c)) := by
  have hd : ∀ (x : R.Feat) (w : R.Wt),
      Host.dotGeneral (F := Ideal) dot_S50000x64_S64x64_S50000x64_1_0_0_1_n_n none x w (ix2 n c)
        = ∑ k : Fin 64, x (ix2 n k) * w (ix2 k c) := fun x w =>
    Cert.Proof.PlainDot.dotGeneral_plain (M := 50000) (K := 64) (N := 64) none _ x w (ix2 n c)
  have hbias : broadcastInDim S50000x64 ![0, 1] bcast_S1x64_S50000x64_0_1
      (broadcastInDim S1x64 ![1] bcast_S64_S1x64_1 b) (ix2 n c) = b (ix1 c) := by
    refine (broadcastInDim_apply _ _ _ (ix2 n c) (ix2 0 c) (fun a => match a with | ⟨0, _⟩ => rfl | ⟨1, _⟩ => rfl)).trans ?_
    exact broadcastInDim_apply _ _ _ (ix2 0 c) (ix1 c) (fun a => match a with | ⟨0, _⟩ => rfl)
  exact congrArg₂ (· + ·) (congrArg₂ (· + ·) (hd mn Wl) hbias) (hd h Wr)

/-- Rectification at (n, c) is the maximum with the real 0. -/
theorem relu_apply (a : R.Feat) (n : Fin 50000) (c : Fin 64) : R.relu a (ix2 n c) = max (a (ix2 n c)) 0 :=
  congrArg (max (a (ix2 n c))) Ideal.ofBits_zero_f32

end Plain

/-! ## The two arrangements of the dense combine agree -/

/-- The dense combine of the packed operands, unpacked, is the plain affine map (rectified or not): index by index
    both are the two 64-term products and the bias entry added up, in two orders that agree because addition of
    extended reals is commutative and associative. -/
theorem dense_eq (rl : Bool) (mn h : K.Feat) (Wl Wr : K.Wt) (b : K.Bias) :
    K.unpack (dense rl (K.pack mn) (K.pack h) (K.bdiag Wl) (K.bdiag Wr) (K.bias2 b))
      = if rl then R.relu (R.affine mn h Wl Wr b) else R.affine mn h Wl Wr b := by
  funext j
  obtain ⟨n, c, rfl⟩ : ∃ (n : Fin 50000) (c : Fin 64), j = ix2 n c := ⟨j 0, j 1, eq_ix2 j⟩
  refine (left_apply rl mn h Wl Wr b n c).trans ?_
  cases rl
  · show _ = R.affine mn h Wl Wr b (ix2 n c)
    rw [affine_apply]
    exact add_right_comm _ _ _
  · show _ = R.relu (R.affine mn h Wl Wr b) (ix2 n c)
    rw [relu_apply, affine_apply]
    exact congrArg (max · 0) (add_right_comm _ _ _)

end Cert.Sage

end
-- ==== Proof.Layer.lean ====
/-
  One layer in the packed arrangement is one layer in the plain arrangement, for ANY node features (finite or not):
  the neighbour means agree entry by entry (a product with the reciprocal of a real ≥ 1 is the quotient by it), and
  the dense combine of the packed arrays with block-diagonal weights, re-laid, is the plain affine map (the
  off-diagonal blocks contribute x · 0 = 0, and the two sides differ in the order of one addition). Three layers one
  after the other therefore agree too.
-/
import proofs.«178403_j53257594470606_2_alg».proof.Proof.Spec
import proofs.«178403_j53257594470606_2_alg».proof.Proof.Mean
import proofs.«178403_j53257594470606_2_alg».proof.Proof.DenseAlg

noncomputable section

namespace Cert.Sage

open Idealize.ShloMosaic

/-- A packed layer is the plain layer of the same inputs. -/
theorem layer_eq (rl : Bool) (h : K.Feat) (ei : K.Edges) (Wl Wr : K.Wt) (b : K.Bias) :
    K.layer rl h ei Wl Wr b = R.layer rl h ei Wl Wr b := by
  unfold K.layer K.layerOf R.layer
  rw [mean_eq, dense_eq]
  rfl

/-- Three packed layers are the three plain layers of the same inputs. -/
theorem net_eq (x : K.Feat) (ei : K.Edges) (Wl1 Wr1 : K.Wt) (b1 : K.Bias) (Wl2 Wr2 : K.Wt) (b2 : K.Bias)
    (Wl3 Wr3 : K.Wt) (b3 : K.Bias) :
    K.layer false (K.layer true (K.layer true x ei Wl1 Wr1 b1) ei Wl2 Wr2 b2) ei Wl3 Wr3 b3
      = R.layer false (R.layer true (R.layer true x ei Wl1 Wr1 b1) ei Wl2 Wr2 b2) ei Wl3 Wr3 b3 := by
  rw [layer_eq, layer_eq, layer_eq]

end Cert.Sage

end
-- ==== Proof.lean ====
/-
  Two programs compute a three-layer graph network that averages each node's in-neighbours: layer ℓ maps node features h
  to (mean_in-neighbours(h) · Wl + b) + h · Wr, rectified after the first two layers. The plain program does this
  with host operations only. The packed program computes the neighbour sum on the host, multiplies by the reciprocal of
  max(in-degree, 1) instead of dividing, and takes the dense part in a launched kernel over a packed layout: two
  consecutive node rows side by side (25000 × 128) against block-diagonal 128 × 128 weights, five blocks of 5000
  packed rows per launch, three launches.

  On the extended reals the two results agree entry by entry, for every input (no finiteness is used): a product with
  the reciprocal of a real ≥ 1 is the quotient by it; the off-diagonal blocks of the weights contribute x · 0 = 0 for
  every extended real x; the two orders of adding the bias agree because addition is commutative and associative; a
  change of float format is the identity. The packed program's value is read off its run segment by segment
  (Walk.lean over Stretches.lean and Region.lean), the plain program's off its run's composed term (RefValue.lean),
  and the layers are joined by Layer.lean (over Mean.lean and DenseAlg.lean). The idealization changed no operation,
  so the packed program's sanctioned idealization is its own text and `preserves` holds trivially.
-/
import proofs.«178403_j53257594470606_2_alg».proof.Defs
import proofs.«178403_j53257594470606_2_alg».proof.Proof.Gen.Kernel
import proofs.«178403_j53257594470606_2_alg».proof.Proof.Gen.Kernel.Skeleton
import proofs.«178403_j53257594470606_2_alg».proof.Proof.Gen.Kernel.Launch
import proofs.«178403_j53257594470606_2_alg».proof.Proof.Gen.Kernel.Points
import proofs.«178403_j53257594470606_2_alg».proof.Proof.Gen.Kernel.Frame
import proofs.«178403_j53257594470606_2_alg».proof.Proof.Gen.KernelIdeal
import proofs.«178403_j53257594470606_2_alg».proof.Proof.Gen.KernelIdeal.Skeleton
import proofs.«178403_j53257594470606_2_alg».proof.Proof.Gen.KernelIdeal.Launch
import proofs.«178403_j53257594470606_2_alg».proof.Proof.Gen.KernelIdeal.Points
import proofs.«178403_j53257594470606_2_alg».proof.Proof.Gen.KernelIdeal.Frame
import proofs.«178403_j53257594470606_2_alg».proof.Proof.Gen.ReferenceIdeal
import proofs.«178403_j53257594470606_2_alg».proof.Proof.Gen.ReferenceIdeal.Run
import proofs.«178403_j53257594470606_2_alg».proof.Proof.Gen.ReferenceIdeal.Read
import proofs.«178403_j53257594470606_2_alg».proof.Proof.Gen.Pre_finite_inputs
import proofs.«178403_j53257594470606_2_alg».proof.Proof.KernelRun
import proofs.«178403_j53257594470606_2_alg».proof.Proof.Walk
import proofs.«178403_j53257594470606_2_alg».proof.Proof.RefValue
import proofs.«178403_j53257594470606_2_alg».proof.Proof.Layer
import Idealize.ShloMosaic.Adequacy
import Idealize.ShloMosaic.Init

noncomputable section

namespace Cert.Proof

open Idealize.ShloMosaic Idealize.ShloMosaic.TcCoe Idealize.SL.Sem

/-- The word-level packed program runs and keeps its arguments. -/
theorem frame_k : Cert.frame_Kernel := fun m ρ _ => Cert.Kernel.Gen.frame m ρ
/-- The idealized packed program runs and keeps its arguments. -/
theorem frame_ki : Cert.frame_KernelIdeal := fun m ρ _ => Cert.KernelIdeal.Gen.frame m ρ
/-- The plain program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the three packed layers' output of the packed
    program's arguments: the packed program by its run read back, the plain program because its three plain layers
    are the packed ones. -/
theorem algebraic : Cert.algebraic_KernelIdeal_ReferenceIdeal := by
  intro m ρ m' ρ' _ hagree
  refine ⟨fun c => Cert.KernelIdeal.Walk.out3 m c, ?_, ?_⟩
  · exact (θ_run Cert.KernelIdeal.defs _ _).mono
      (fun r h c => ⟨(h c).1.trans (Cert.KernelIdeal.Walk.result m ρ c), (h c).2⟩)
      (Cert.KernelIdeal.RunV.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq m' c).trans ?_
    unfold Cert.ReferenceIdeal.RefValue.net Cert.KernelIdeal.Walk.out3 Cert.KernelIdeal.Walk.out2 Cert.KernelIdeal.Walk.out1
    obtain ⟨h0, h1, h2, h3, h4, h5, h6, h7, h8, h9, h10⟩ := hagree c
    rw [h0, h1, h2, h3, h4, h5, h6, h7, h8, h9, h10]
    exact (Cert.Sage.net_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
